-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg12 : FVec F S3 .f32) (main_v48 : IVec S_ 1) (main_v49 : FVec F S64x3 .f32) (main_v50 : FVec F S64x3 .f32) : IVec S_ 1 :=
  let main_v51 : IVec S64x3 1 := cmpf .olt main_v49 main_v50
  let main_c_19 : IVec S_ 1 := constantI S_ 1 1#1
  let main_v52 : IVec S_ 1 := (fun x v => Host.reduce IntOp.andi x v reducesTo_S64x3_S_d0_1 h_S_) main_v51 main_c_19
  let main_v53 : IVec S_ 1 := andi main_v48 main_v52
  let main_v54 : FVec F S3 .f32 := Host.absf main_arg12
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg8 : FVec F S128 .f32) (main_arg9 : FVec F S128x64 .f32) (main_arg10 : FVec F S64 .f32) (main_arg11 : FVec F S64x3 .f32) (main_arg12 : FVec F S3 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x3 .f32 := Host.absf main_arg11
  let main_cst_18 : FVec F S_ .f32 := constant S_ .f32 0x7F800000#32
  let main_v50 : FVec F S64x3 .f32 := broadcastInDim S64x3 ![] bcast_S_S64x3 main_cst_18
  fn_part3 (F := F) main_arg12 main_v48 main_v49 main_v50

def fn_part1 {F : FTy → Type} [FloatOps F] (main_arg5 : FVec F S512x256 .f32) (main_arg6 : FVec F S256 .f32) (main_arg7 : FVec F S256x128 .f32) (main_arg8 : FVec F S128 .f32) (main_arg9 : FVec F S128x64 .f32) (main_arg10 : FVec F S64 .f32) (main_arg11 : FVec F S64x3 .f32) (main_arg12 : FVec F S3 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S8192x512 .f32) (main_arg1 : IVec S2x262144 32) (main_arg2 : FVec F S512x512 .f32) (main_arg3 : FVec F S512 .f32) (main_arg4 : FVec F S512x512 .f32) (main_arg5 : FVec F S512x256 .f32) (main_arg6 : FVec F S256 .f32) (main_arg7 : FVec F S256x128 .f32) (main_arg8 : FVec F S128 .f32) (main_arg9 : FVec F S128x64 .f32) (main_arg10 : FVec F S64 .f32) (main_arg11 : FVec F S64x3 .f32) (main_arg12 : FVec F S3 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_arg11 main_arg12 main_v13 main_v16
-- ==== Kernel.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x512 : Shape := ⟨2, ![262144, 512]⟩
abbrev S8192 : Shape := ⟨1, ![8192]⟩
abbrev S8192x1 : Shape := ⟨2, ![8192, 1]⟩
abbrev S1x512 : Shape := ⟨2, ![1, 512]⟩
abbrev S1x256 : Shape := ⟨2, ![1, 256]⟩
abbrev S1x128 : Shape := ⟨2, ![1, 128]⟩
abbrev S1x64 : Shape := ⟨2, ![1, 64]⟩
abbrev S1x3 : Shape := ⟨2, ![1, 3]⟩
abbrev S8192x3 : Shape := ⟨2, ![8192, 3]⟩
abbrev S1024x512 : Shape := ⟨2, ![1024, 512]⟩
abbrev S1024x3 : Shape := ⟨2, ![1024, 3]⟩
abbrev S1024x256 : Shape := ⟨2, ![1024, 256]⟩
abbrev S1024x128 : Shape := ⟨2, ![1024, 128]⟩
abbrev S1024x64 : Shape := ⟨2, ![1024, 64]⟩
abbrev S8192x8192 : Shape := ⟨2, ![8192, 8192]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S3x1024 : Shape := ⟨2, ![3, 1024]⟩

abbrev nBuf : Space → Nat
  | .hbm => 49
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x3, .f32⟩
  | .hbm, ⟨12, _⟩ => ⟨S3, .f32⟩
  | .hbm, ⟨13, _⟩ => ⟨S1x262144, .i32⟩
  | .hbm, ⟨14, _⟩ => ⟨S262144, .i32⟩
  | .hbm, ⟨15, _⟩ => ⟨S1x262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x512, .f32⟩
  | .hbm, ⟨26, _⟩ => ⟨S_, .f32⟩
  | .hbm, ⟨27, _⟩ => ⟨S8192x512, .f32⟩
  | .hbm, ⟨28, _⟩ => ⟨S262144x1, .i32⟩
  | .hbm, ⟨29, _⟩ => ⟨S8192x512, .f32⟩
  | .hbm, ⟨30, _⟩ => ⟨S_, .f32⟩
  | .hbm, ⟨31, _⟩ => ⟨S262144, .f32⟩
  | .hbm, ⟨32, _⟩ => ⟨S_, .f32⟩
  | .hbm, ⟨33, _⟩ => ⟨S8192, .f32⟩
  | .hbm, ⟨34, _⟩ => ⟨S262144x1, .i32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x512, .f32⟩
  | .hbm, ⟨41, _⟩ => ⟨S8192x512, .f32⟩
  | .hbm, ⟨42, _⟩ => ⟨S1x512, .f32⟩
  | .hbm, ⟨43, _⟩ => ⟨S1x256, .f32⟩
  | .hbm, ⟨44, _⟩ => ⟨S1x128, .f32⟩
  | .hbm, ⟨45, _⟩ => ⟨S1x64, .f32⟩
  | .hbm, ⟨46, _⟩ => ⟨S1x3, .f32⟩
  | .hbm, ⟨47, _⟩ => ⟨S8192x3, .f32⟩
  | .hbm, ⟨48, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S512x256, .f32⟩
  | .local _ .vmem, ⟨8, _⟩ => ⟨S1x256, .f32⟩
  | .local _ .vmem, ⟨9, _⟩ => ⟨S256x128, .f32⟩
  | .local _ .vmem, ⟨10, _⟩ => ⟨S1x128, .f32⟩
  | .local _ .vmem, ⟨11, _⟩ => ⟨S128x64, .f32⟩
  | .local _ .vmem, ⟨12, _⟩ => ⟨S1x64, .f32⟩
  | .local _ .vmem, ⟨13, _⟩ => ⟨S64x3, .f32⟩
  | .local _ .vmem, ⟨14, _⟩ => ⟨S1x3, .f32⟩
  | .local _ .vmem, ⟨15, _⟩ => ⟨S1024x3, .f32⟩
  | .local _ .vmem, ⟨16, _⟩ => ⟨S1024x3, .f32⟩
  | .local _ .vmem, ⟨17, _⟩ => ⟨S1024x3, .f32⟩
  | .local _ .vmem, ⟨18, _⟩ => ⟨S1024x3, .f32⟩
  | .local _ .vmem, ⟨19, _⟩ => ⟨S1024x3, .f32⟩
  | .local _ .vmem, ⟨20, _⟩ => ⟨S1024x3, .f32⟩
  | .local _ .vmem, ⟨21, _⟩ => ⟨S1024x1024, .f32⟩
  | .local _ .vmem, ⟨22, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S8192x512 : S_.BroadcastsInDim S8192x512 (![] : Fin 0 → Fin S8192x512.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  shapeCasts_S512_S1x512 : S512.ShapeCasts S1x512
  shapeCasts_S256_S1x256 : S256.ShapeCasts S1x256
  shapeCasts_S128_S1x128 : S128.ShapeCasts S1x128
  shapeCasts_S64_S1x64 : S64.ShapeCasts S1x64
  shapeCasts_S3_S1x3 : S3.ShapeCasts S1x3
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1024x3 : S1x3.Broadcasts S1024x3
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  reduces_S1024x3_S1024 : S1024x3.Reduces [1] S1024
  shapeCasts_S1024_S1024x1 : S1024.ShapeCasts S1024x1
  shapeCasts_S1024_S1x1024 : S1024.ShapeCasts S1x1024
  transposes_S1024x3_p1_0_S3x1024 : S1024x3.Transposes [1, 0] S3x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  gather_S8192x512_S262144x1_S262144x512_1_0_n_n_0_1_1512_wf : GatherDims.WF S8192x512 S262144x1 S262144x512 [1] [0] [] [0] [] 1 ![1, 512]
  scatter_S8192x512_S262144x1_S262144x512_1_0_0_1_wf : ScatterDims.WF S8192x512 S262144x1 S262144x512 [1] [0] [0] 1
  scatter_S8192_S262144x1_S262144_n_0_0_1_wf : ScatterDims.WF S8192 S262144x1 S262144 [] [0] [0] 1
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x3_S1024x3_1_0_0_1_n_n_wf : DotDims.WF S1024x64 S64x3 S1024x3 [1] [0] [0] [1] [] []
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x3.size a ≤ S64x3.size a
  hwx0_11 : ∀ i : grid0.Coords, EltTy.bits .f32 = 32 ∨ (Rect.block (s := S64x3) S64x3.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x3.size a ≤ S1x3.size a
  hwx0_12 : ∀ i : grid0.Coords, EltTy.bits .f32 = 32 ∨ (Rect.block (s := S1x3) S1x3.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x3.size a ≤ S8192x3.size a
  hwx0_13 : ∀ i : grid0.Coords, EltTy.bits .f32 = 32 ∨ (Rect.block (s := S8192x3) S1024x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3.size a ≤ S8192x3.size a
  hwx1_0 : ∀ i : grid1.Coords, EltTy.bits .f32 = 32 ∨ (Rect.block (s := S8192x3) S1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x3.size a ≤ S8192x3.size a
  hwx1_1 : ∀ i : grid1.Coords, EltTy.bits .f32 = 32 ∨ (Rect.block (s := S8192x3) S1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def gather_S8192x512_S262144x1_S262144x512_1_0_n_n_0_1_1512 : GatherDims S8192x512 S262144x1 S262144x512 where
  offsetDims := [1]
  collapsedSliceDims := [0]
  operandBatchingDims := []
  startIndicesBatchingDims := []
  startIndexMap := [0]
  indexVectorDim := 1
  sliceSizes := ![1, 512]
  wf := gather_S8192x512_S262144x1_S262144x512_1_0_n_n_0_1_1512_wf
def scatter_S8192x512_S262144x1_S262144x512_1_0_0_1 : ScatterDims S8192x512 S262144x1 S262144x512 where
  updateWindowDims := [1]
  insertedWindowDims := [0]
  scatterDimsToOperandDims := [0]
  indexVectorDim := 1
  wf := scatter_S8192x512_S262144x1_S262144x512_1_0_0_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x3_S1024x3_1_0_0_1_n_n : DotDims S1024x64 S64x3 S1024x3 where
  lhsContracting := [1]
  rhsContracting := [0]
  lhsNonContracting := [0]
  rhsNonContracting := [1]
  lhsBatch := []
  rhsBatch := []
  wf := dot_S1024x64_S64x3_S1024x3_1_0_0_1_n_n_wf
def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_v22) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64x3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v27) S1x3.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v28) S1024x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v28) S1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x512 : Shape := ⟨2, ![262144, 512]⟩
abbrev S8192 : Shape := ⟨1, ![8192]⟩
abbrev S8192x1 : Shape := ⟨2, ![8192, 1]⟩
abbrev S1x512 : Shape := ⟨2, ![1, 512]⟩
abbrev S8192x256 : Shape := ⟨2, ![8192, 256]⟩
abbrev S1x256 : Shape := ⟨2, ![1, 256]⟩
abbrev S8192x128 : Shape := ⟨2, ![8192, 128]⟩
abbrev S1x128 : Shape := ⟨2, ![1, 128]⟩
abbrev S8192x64 : Shape := ⟨2, ![8192, 64]⟩
abbrev S1x64 : Shape := ⟨2, ![1, 64]⟩
abbrev S8192x3 : Shape := ⟨2, ![8192, 3]⟩
abbrev S1x3 : Shape := ⟨2, ![1, 3]⟩
abbrev S1x8192 : Shape := ⟨2, ![1, 8192]⟩
abbrev S8192x8192 : Shape := ⟨2, ![8192, 8192]⟩
abbrev S3x8192 : Shape := ⟨2, ![3, 8192]⟩

abbrev nBuf : Space → Nat
  | .hbm => 108
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x3, .f32⟩
  | .hbm, ⟨12, _⟩ => ⟨S3, .f32⟩
  | .hbm, ⟨13, _⟩ => ⟨S1x262144, .i32⟩
  | .hbm, ⟨14, _⟩ => ⟨S262144, .i32⟩
  | .hbm, ⟨15, _⟩ => ⟨S1x262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x512, .f32⟩
  | .hbm, ⟨26, _⟩ => ⟨S_, .f32⟩
  | .hbm, ⟨27, _⟩ => ⟨S8192x512, .f32⟩
  | .hbm, ⟨28, _⟩ => ⟨S262144x1, .i32⟩
  | .hbm, ⟨29, _⟩ => ⟨S8192x512, .f32⟩
  | .hbm, ⟨30, _⟩ => ⟨S_, .f32⟩
  | .hbm, ⟨31, _⟩ => ⟨S262144, .f32⟩
  | .hbm, ⟨32, _⟩ => ⟨S_, .f32⟩
  | .hbm, ⟨33, _⟩ => ⟨S8192, .f32⟩
  | .hbm, ⟨34, _⟩ => ⟨S262144x1, .i32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S8192x256, .f32⟩
  | .hbm, ⟨52, _⟩ => ⟨S1x256, .f32⟩
  | .hbm, ⟨53, _⟩ => ⟨S8192x256, .f32⟩
  | .hbm, ⟨54, _⟩ => ⟨S8192x256, .f32⟩
  | .hbm, ⟨55, _⟩ => ⟨S_, .f32⟩
  | .hbm, ⟨56, _⟩ => ⟨S8192x256, .f32⟩
  | .hbm, ⟨57, _⟩ => ⟨S8192x256, .f32⟩
  | .hbm, ⟨58, _⟩ => ⟨S8192x128, .f32⟩
  | .hbm, ⟨59, _⟩ => ⟨S1x128, .f32⟩
  | .hbm, ⟨60, _⟩ => ⟨S8192x128, .f32⟩
  | .hbm, ⟨61, _⟩ => ⟨S8192x128, .f32⟩
  | .hbm, ⟨62, _⟩ => ⟨S_, .f32⟩
  | .hbm, ⟨63, _⟩ => ⟨S8192x128, .f32⟩
  | .hbm, ⟨64, _⟩ => ⟨S8192x128, .f32⟩
  | .hbm, ⟨65, _⟩ => ⟨S8192x64, .f32⟩
  | .hbm, ⟨66, _⟩ => ⟨S1x64, .f32⟩
  | .hbm, ⟨67, _⟩ => ⟨S8192x64, .f32⟩
  | .hbm, ⟨68, _⟩ => ⟨S8192x64, .f32⟩
  | .hbm, ⟨69, _⟩ => ⟨S_, .f32⟩
  | .hbm, ⟨70, _⟩ => ⟨S8192x64, .f32⟩
  | .hbm, ⟨71, _⟩ => ⟨S8192x64, .f32⟩
  | .hbm, ⟨72, _⟩ => ⟨S8192x3, .f32⟩
  | .hbm, ⟨73, _⟩ => ⟨S1x3, .f32⟩
  | .hbm, ⟨74, _⟩ => ⟨S8192x3, .f32⟩
  | .hbm, ⟨75, _⟩ => ⟨S8192x3, .f32⟩
  | .hbm, ⟨76, _⟩ => ⟨S8192x3, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S1x8192, .f32⟩
  | .hbm, ⟨81, _⟩ => ⟨S8192x8192, .f32⟩
  | .hbm, ⟨82, _⟩ => ⟨S8192x8192, .f32⟩
  | .hbm, ⟨83, _⟩ => ⟨S8192x8192, .f32⟩
  | .hbm, ⟨84, _⟩ => ⟨S3x8192, .f32⟩
  | .hbm, ⟨85, _⟩ => ⟨S8192x8192, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S_, .f32⟩
  | .hbm, ⟨91, _⟩ => ⟨S8192x8192, .f32⟩
  | .hbm, ⟨92, _⟩ => ⟨S8192x8192, .f32⟩
  | .hbm, ⟨93, _⟩ => ⟨S_, .f32⟩
  | .hbm, ⟨94, _⟩ => ⟨S8192x8192, .f32⟩
  | .hbm, ⟨95, _⟩ => ⟨S8192x8192, .i1⟩
  | .hbm, ⟨96, _⟩ => ⟨S_, .f32⟩
  | .hbm, ⟨97, _⟩ => ⟨S_, .f32⟩
  | .hbm, ⟨98, _⟩ => ⟨S8192x8192, .f32⟩
  | .hbm, ⟨99, _⟩ => ⟨S8192x8192, .f32⟩
  | .hbm, ⟨100, _⟩ => ⟨S_, .f32⟩
  | .hbm, ⟨101, _⟩ => ⟨S8192x8192, .f32⟩
  | .hbm, ⟨102, _⟩ => ⟨S8192x8192, .i1⟩
  | .hbm, ⟨103, _⟩ => ⟨S8192x8192, .f32⟩
  | .hbm, ⟨104, _⟩ => ⟨S_, .f32⟩
  | .hbm, ⟨105, _⟩ => ⟨S_, .f32⟩
  | .hbm, ⟨106, _⟩ => ⟨S8192x8192, .f32⟩
  | .hbm, ⟨107, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call3_cst : Ref sig .tc := ⟨.hbm, 69, rfl⟩
abbrev main_call3_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_4 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_5 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_6 : Ref sig .tc := ⟨.hbm, 90, rfl⟩
abbrev main_v61 : Ref sig .tc := ⟨.hbm, 91, rfl⟩
abbrev main_v62 : Ref sig .tc := ⟨.hbm, 92, rfl⟩
abbrev main_cst_7 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_call4_v0 : Ref sig .tc := ⟨.hbm, 97, rfl⟩
abbrev main_call4_v1 : Ref sig .tc := ⟨.hbm, 98, rfl⟩
abbrev main_v65 : Ref sig .tc := ⟨.hbm, 99, rfl⟩
abbrev main_cst_9 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_10 : Ref sig .tc := ⟨.hbm, 104, rfl⟩
abbrev main_call5_v0 : Ref sig .tc := ⟨.hbm, 105, rfl⟩
abbrev main_call5_v1 : Ref sig .tc := ⟨.hbm, 106, rfl⟩
abbrev main_v69 : Ref sig .tc := ⟨.hbm, 107, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S8192x512 : S_.BroadcastsInDim S8192x512 (![] : Fin 0 → Fin S8192x512.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  reducesTo_S8192x3_S8192_d1 : S8192x3.ReducesTo [1] S8192
  h_S_ : 0 < S_.numel
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  gather_S8192x512_S262144x1_S262144x512_1_0_n_n_0_1_1512_wf : GatherDims.WF S8192x512 S262144x1 S262144x512 [1] [0] [] [0] [] 1 ![1, 512]
  scatter_S8192x512_S262144x1_S262144x512_1_0_0_1_wf : ScatterDims.WF S8192x512 S262144x1 S262144x512 [1] [0] [0] 1
  scatter_S8192_S262144x1_S262144_n_0_0_1_wf : ScatterDims.WF S8192 S262144x1 S262144 [] [0] [0] 1
  dot_S8192x512_S512x512_S8192x512_1_0_0_1_n_n_wf : DotDims.WF S8192x512 S512x512 S8192x512 [1] [0] [0] [1] [] []
  dot_S8192x512_S512x256_S8192x256_1_0_0_1_n_n_wf : DotDims.WF S8192x512 S512x256 S8192x256 [1] [0] [0] [1] [] []
  dot_S8192x256_S256x128_S8192x128_1_0_0_1_n_n_wf : DotDims.WF S8192x256 S256x128 S8192x128 [1] [0] [0] [1] [] []
  dot_S8192x128_S128x64_S8192x64_1_0_0_1_n_n_wf : DotDims.WF S8192x128 S128x64 S8192x64 [1] [0] [0] [1] [] []
  dot_S8192x64_S64x3_S8192x3_1_0_0_1_n_n_wf : DotDims.WF S8192x64 S64x3 S8192x3 [1] [0] [0] [1] [] []
  dot_S8192x3_S3x8192_S8192x8192_1_0_0_1_n_n_wf : DotDims.WF S8192x3 S3x8192 S8192x8192 [1] [0] [0] [1] [] []

variable [Facts₀]

def gather_S8192x512_S262144x1_S262144x512_1_0_n_n_0_1_1512 : GatherDims S8192x512 S262144x1 S262144x512 where
  offsetDims := [1]
  collapsedSliceDims := [0]
  operandBatchingDims := []
  startIndicesBatchingDims := []
  startIndexMap := [0]
  indexVectorDim := 1
  sliceSizes := ![1, 512]
  wf := gather_S8192x512_S262144x1_S262144x512_1_0_n_n_0_1_1512_wf
def scatter_S8192x512_S262144x1_S262144x512_1_0_0_1 : ScatterDims S8192x512 S262144x1 S262144x512 where
  updateWindowDims := [1]
  insertedWindowDims := [0]
  scatterDimsToOperandDims := [0]
  indexVectorDim := 1
  wf := scatter_S8192x512_S262144x1_S262144x512_1_0_0_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x3_S8192x3_1_0_0_1_n_n : DotDims S8192x64 S64x3 S8192x3 where
  lhsContracting := [1]
  rhsContracting := [0]
  lhsNonContracting := [0]
  rhsNonContracting := [1]
  lhsBatch := []
  rhsBatch := []
  wf := dot_S8192x64_S64x3_S8192x3_1_0_0_1_n_n_wf
def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.KRegion0Defs.lean ====
/-
  Region 0 — the row-tiled MLP — as the pipeline sees it: the grid has 8 points, point `t` works on rows
  1024·t … 1024·t+1023. Each input window's block at a point is read off its array; the weights and biases are
  whole-array blocks, the same at every point. The one output block of 1024×3 is what the body stores: the last
  linear layer applied to four ReLU layers, the first of which adds the neighbour and the root products.
-/
import proofs.«148003_j26620207301223_1_alg».proof.Proof.Gen.Kernel.Launch
import proofs.«148003_j26620207301223_1_alg».proof.Proof.Gen.Kernel.Skeleton
import proofs.«148003_j26620207301223_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024×3 block, the one rectangle the body stores through. -/
abbrev rOut0 : Rect S1024x3 := (Rect.unit (s := S1024x3) ![0, 0] S1024x3.size inb_S1024x3_S1024x3_0_0)

/-- The output block after the body, from the thirteen input blocks: the body's single store, its value the
    five-layer network of the loaded blocks. -/
def out0_13 (x0 : Vec F S1024x512 .f32) (x1 : Vec F S1024x512 .f32) (x2 : Vec F S512x512 .f32) (x3 : Vec F S1x512 .f32) (x4 : Vec F S512x512 .f32) (x5 : Vec F S512x256 .f32) (x6 : Vec F S1x256 .f32) (x7 : Vec F S256x128 .f32) (x8 : Vec F S1x128 .f32) (x9 : Vec F S128x64 .f32) (x10 : Vec F S1x64 .f32) (x11 : Vec F S64x3 .f32) (x12 : Vec F S1x3 .f32) : Vec F S1024x3 .f32 :=
  View.canon [⟨rOut0, k0_pay1 (k0_pay2 (View.ld x0 (Rect.unit (s := S1024x512) ![0, 0] S1024x512.size inb_S1024x512_S1024x512_0_0)) (View.ld x1 (Rect.unit (s := S1024x512) ![0, 0] S1024x512.size inb_S1024x512_S1024x512_0_0)) (View.ld x2 (Rect.unit (s := S512x512) ![0, 0] S512x512.size inb_S512x512_S512x512_0_0)) (View.ld x3 (Rect.unit (s := S1x512) ![0, 0] S1x512.size inb_S1x512_S1x512_0_0)) (View.ld x4 (Rect.unit (s := S512x512) ![0, 0] S512x512.size inb_S512x512_S512x512_0_0)) (View.ld x5 (Rect.unit (s := S512x256) ![0, 0] S512x256.size inb_S512x256_S512x256_0_0)) (View.ld x6 (Rect.unit (s := S1x256) ![0, 0] S1x256.size inb_S1x256_S1x256_0_0)) (View.ld x7 (Rect.unit (s := S256x128) ![0, 0] S256x128.size inb_S256x128_S256x128_0_0)) (View.ld x8 (Rect.unit (s := S1x128) ![0, 0] S1x128.size inb_S1x128_S1x128_0_0)))
    (View.ld x9 (Rect.unit (s := S128x64) ![0, 0] S128x64.size inb_S128x64_S128x64_0_0)) (constant S1024x64 .f32 0x00000000#32)
    (View.ld x10 (Rect.unit (s := S1x64) ![0, 0] S1x64.size inb_S1x64_S1x64_0_0)) (View.ld x11 (Rect.unit (s := S64x3) ![0, 0] S64x3.size inb_S64x3_S64x3_0_0)) (View.ld x12 (Rect.unit (s := S1x3) ![0, 0] S1x3.size inb_S1x3_S1x3_0_0))⟩]

/-- The single store covers the block. -/
theorem cover0_13 (p0 : Vec F S1024x3 .f32) (y : S1024x3.Idx) :
    ∃ pc ∈ ([⟨rOut0, p0⟩] : List (View.Piece (Elt F) S1024x3 .f32)), y ∈ pc.1.set :=
  View.cover_of_tiled [⟨rOut0, p0⟩] S1024x3.size (by rfl) y

/-- The proof data of region 0 on core `c`: the arrays as the region finds them; after the body each input's
    buffer still holds its block and the output's holds `out0_13` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]

end Cert.Kernel.Hand

end
-- ==== Proof.KRegion1Defs.lean ====
/-
  Region 1 — the pairwise distances — as the pipeline sees it: an 8×8 grid, point (i, j) reads rows
  1024·i … of the embedding through its first window and rows 1024·j … of the SAME embedding through its second,
  and stores the 1024×1024 block of distances between the two row sets. Both input windows look at one array,
  so each holds half of that array's share; a read needs no more.
-/
import proofs.«148003_j26620207301223_1_alg».proof.Proof.Gen.Kernel.Launch
import proofs.«148003_j26620207301223_1_alg».proof.Proof.Gen.Kernel.Skeleton
import proofs.«148003_j26620207301223_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1024×1024 block, the one rectangle the body stores through. -/
abbrev rOut1 : Rect S1024x1024 := (Rect.unit (s := S1024x1024) ![0, 0] S1024x1024.size inb_S1024x1024_S1024x1024_0_0)

/-- The output block after the body, from the two row blocks: the body's single store. -/
def out1_2 (x0 : Vec F S1024x3 .f32) (x1 : Vec F S1024x3 .f32) : Vec F S1024x1024 .f32 :=
  View.canon [⟨rOut1, k1_pay1 (View.ld x0 (Rect.unit (s := S1024x3) ![0, 0] S1024x3.size inb_S1024x3_S1024x3_0_0)) (View.ld x1 (Rect.unit (s := S1024x3) ![0, 0] S1024x3.size inb_S1024x3_S1024x3_0_0))⟩]

/-- The single store covers the block. -/
theorem cover1_2 (p0 : Vec F S1024x1024 .f32) (y : S1024x1024.Idx) :
    ∃ pc ∈ ([⟨rOut1, p0⟩] : List (View.Piece (Elt F) S1024x1024 .f32)), y ∈ pc.1.set :=
  View.cover_of_tiled [⟨rOut1, p0⟩] S1024x1024.size (by rfl) y

/-- The proof data of region 1 on core `c`: the arrays as the region finds them; after the body each input's
    buffer still holds its block and the output's holds `out1_2` of the two; nothing owed; the two input windows,
    which read one array, hold the two halves of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Cert.Kernel.Hand

end
-- ==== Proof.KShare1.lean ====
/-
  Region 1's three windows look at two arrays: both input windows at the embedding, the output window at the
  distance matrix. Held whole at the full share, the two buffers are exactly the three windows' arrays at the
  shares the proof data name — the embedding's full share split into its left and right halves, one per reading
  window — and conversely the two halves at one contents join back into the whole.
-/
import proofs.«148003_j26620207301223_1_alg».proof.Proof.KRegion1Defs
import Idealize.ShloMosaic.Lib.Pipeline.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The distinct buffers behind region 1's arrays: the embedding and the distance matrix. -/
theorem arrImage1 : (Finset.univ.image (Pipeline.arrRef spec1) : Finset (Ref sig .tc)) = {main_v28, main_v29} := by decide

/-- Splitting: the two buffers whole at contents `W` give the three windows' arrays at `W`, the embedding's share halved. -/
theorem arrBufs1_split (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      ⊢ (dat1 V c).arrays (fun w => W (Pipeline.arrRef spec1 w)) := by
  unfold Pipeline.arrBufs Dat.arrays
  rw [arrImage1, bigSep_insert (by decide), bigSep_singleton, Gen.bigSep_W1]
  have h0 : (dat1 V c).share 0 = fullShare.left := rfl
  have h1 : (dat1 V c).share 1 = fullShare.right := rfl
  have h2 : (dat1 V c).share 2 = fullShare := rfl
  rw [h0, h1, h2, (Gen.arr_whole1 0).set_eq_univ, (Gen.arr_whole1 2).set_eq_univ]
  show iprop((((c : Thread nD τ).loc main_v28) ↦{fullShare} W main_v28) ∗ ((c : Thread nD τ).loc main_v29) ↦{fullShare} W main_v29) ⊢ _
  iintro ⟨H28, H29⟩
  ihave H := (pointsTo_share (PosShare.mem_left_op_right fullShare)).1 $$ H28
  icases H with ⟨Hl, Hr⟩
  isplitl [Hl]; · iexact Hl
  isplitl [Hr]; · iexact Hr
  iexact H29

/-- Joining: the three windows' arrays at `W` give back the two buffers whole at `W`. -/
theorem arrBufs1_join (c : Dev nD) (W : (b : Ref sig .tc) → Buf (Elt F) ((c : Thread nD τ).loc b)) :
    (dat1 V c).arrays (fun w => W (Pipeline.arrRef spec1 w))
      ⊢ (Pipeline.arrBufs (Ix := Unit) (Name := ℕ) (U := UR sig nD τ) (Lvl := ℕ) spec1 c W : sProp 𝕄) := by
  unfold Pipeline.arrBufs Dat.arrays
  rw [arrImage1, bigSep_insert (by decide), bigSep_singleton, Gen.bigSep_W1]
  have h0 : (dat1 V c).share 0 = fullShare.left := rfl
  have h1 : (dat1 V c).share 1 = fullShare.right := rfl
  have h2 : (dat1 V c).share 2 = fullShare := rfl
  rw [h0, h1, h2, (Gen.arr_whole1 0).set_eq_univ, (Gen.arr_whole1 2).set_eq_univ]
  show _ ⊢ iprop((((c : Thread nD τ).loc main_v28) ↦{fullShare} W main_v28) ∗ ((c : Thread nD τ).loc main_v29) ↦{fullShare} W main_v29)
  iintro ⟨Hl, Hr, H29⟩
  isplitl [Hl Hr]
  · iapply (pointsTo_share (PosShare.mem_left_op_right fullShare)).2
    isplitl [Hl]; · iexact Hl
    iexact Hr
  iexact H29

end Cert.Kernel.Hand

end
-- ==== Proof.KFrame.lean ====
/-
  The two regions as steps of the whole program.

  Between its steps the program holds every unscoped buffer at known contents: the launch contents, then what the
  host prefix computes, then the embedding as the row-tiled network leaves it, then the distance matrix as the
  tiled distance kernel leaves it. Each region takes its windows' arrays out of that state, runs its pipeline, and
  puts them back with its output array updated; the second region reads the embedding through two windows, so it
  takes that one buffer as two half shares and joins them again when it is done. No region writes an argument,
  which is the frame claim.
-/
import proofs.«148003_j26620207301223_1_alg».proof.Proof.Gen.Kernel.Regions
import proofs.«148003_j26620207301223_1_alg».proof.Proof.KRegion0Defs
import proofs.«148003_j26620207301223_1_alg».proof.Proof.KRegion1Defs
import proofs.«148003_j26620207301223_1_alg».proof.Proof.KShare1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between the steps -/

/-- What region 0 finds: the launch contents after the host prefix, read at the TensorCore's references. -/
abbrev VA : (c : Dev nD) → (b : Ref sig .tc) → Buf (Elt F) ((c : Thread nD τ).loc b) := fun c b => Gen.V1 m c b

/-- The embedding as region 0 leaves it: its write-backs folded over the grid. -/
def y0 (c : Dev nD) : Buf (Elt F) ((c : Thread nD τ).loc main_v28) := (dat0 (VA m) c).arrAt 13 cfg0.N

/-- What region 1 finds: the same, the embedding's buffer at what region 0 left. -/
abbrev VBv (c : Dev nD) : Valuation τ sig (Elt F) := Function.update (Gen.V1 m c) main_v28 (y0 m c)
abbrev VB : (c : Dev nD) → (b : Ref sig .tc) → Buf (Elt F) ((c : Thread nD τ).loc b) := fun c b => VBv m c b

/-- The distance matrix as region 1 leaves it. -/
def y1 (c : Dev nD) : Buf (Elt F) ((c : Thread nD τ).loc main_v29) := (dat1 (VB m) c).arrAt 2 cfg1.N

/-- The end: the distance matrix's buffer at what region 1 left. -/
abbrev VCv (c : Dev nD) : Valuation τ sig (Elt F) := Function.update (VBv m c) main_v29 (y1 m c)
abbrev VC : (c : Dev nD) → (b : Ref sig .tc) → Buf (Elt F) ((c : Thread nD τ).loc b) := fun c b => VCv m c b

/-- What the regions leave in the two buffers they may change. -/
def outs : Gen.Outs (F := F) := fun _ r c =>
  if h : r = main_v28 then h ▸ y0 m c
  else if h' : r = main_v29 then h' ▸ y1 m c
  else m ((c : Thread nD τ).loc r)

theorem outs_v28 (c : Dev nD) : outs m 2 main_v28 c = y0 m c := by
  unfold outs; rw [dif_pos rfl]
theorem outs_v29 (c : Dev nD) : outs m 3 main_v29 c = y1 m c := by
  unfold outs; rw [dif_neg (by decide), dif_pos rfl]

theorem V2_eq (c : Dev nD) : Gen.V2 m (outs m) c = VBv m c := by
  show Function.update (Gen.V1 m c) main_v28 (outs m 2 main_v28 c) = _
  rw [outs_v28]
theorem V3_eq (c : Dev nD) : Gen.V3 m (outs m) c = VCv m c := by
  show Function.update (Gen.V2 m (outs m) c) main_v29 (outs m 3 main_v29 c) = _
  rw [outs_v29, V2_eq]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every step: the core's generator register at some state and its dues, none. -/
abbrev R (c : Dev nD) : sProp 𝕄 := iprop((∃ r, prngReg c r) ∗ ∃ W, owes (c : Thread nD τ) (0 : CellTallies nD τ sig Unit) W)

/-! ## Region 0: every window has an array of its own -/

/-- Every window of region 0 but the last is an input, and the embedding's buffer is no input's array. -/
theorem isIn0 : ∀ w : Fin 14, w ≠ 13 → (cfg0.win w).isOut = false := by decide
theorem arrNe0 : ∀ w : Fin 14, w ≠ 13 → Pipeline.arrRef spec0 w ∉ ([main_v28] : List (Ref sig .tc)) := by decide

/-- After region 0 each of its arrays holds what the pipeline leaves: an input its entry contents, the output the embedding. -/
theorem hF0 (c : Dev nD) (w : Fin cfg0.W) : (dat0 (VA m) c).arrAt w cfg0.N = Gen.V2 m (outs m) c (Pipeline.arrRef spec0 w) := by
  by_cases h : w = 13
  · subst h
    show y0 m c = Function.update (Gen.V1 m c) main_v28 (outs m 2 main_v28 c) main_v28
    rw [Function.update_self, outs_v28]
  · exact ((dat0 (VA m) c).arrAt_in w (isIn0 w h) _).trans
      ((A_eq0 (VA m) c w).trans (Gen.V2_of m (outs m) c _ (arrNe0 w h)).symm)

/-- Every other buffer is as region 0 found it. -/
theorem hrest0 (c : Dev nD) : ∀ b, b ∉ Finset.univ.image (Pipeline.arrRef spec0) → Gen.V2 m (outs m) c b = Gen.V1 m c b := fun b hb =>
  Gen.V2_of m (outs m) c b (by
    intro h
    exact hb (Finset.mem_image.mpr ⟨13, Finset.mem_univ _, (List.mem_singleton.mp h).symm⟩))

/-! ## Region 1: two windows read one array -/

theorem isIn1 : ∀ w : Fin 3, w ≠ 2 → (cfg1.win w).isOut = false := by decide
theorem arrEq1 : ∀ w : Fin 3, w ≠ 2 → Pipeline.arrRef spec1 w = main_v28 := by decide

/-- After region 1 each of its arrays holds what the pipeline leaves: the embedding as found, the output the distances. -/
theorem hF1 (c : Dev nD) (w : Fin cfg1.W) : (dat1 (VB m) c).arrAt w cfg1.N = VC m c (Pipeline.arrRef spec1 w) := by
  by_cases h : w = 2
  · subst h
    show y1 m c = Function.update (VBv m c) main_v29 (y1 m c) main_v29
    rw [Function.update_self]
  · refine ((dat1 (VB m) c).arrAt_in w (isIn1 w h) _).trans ((A_eq1 (VB m) c w).trans ?_)
    have e := arrEq1 w h
    show VBv m c (Proc.devRef .tc (Pipeline.arrRef spec1 w)) = Function.update (VBv m c) main_v29 (y1 m c) (Proc.devRef .tc (Pipeline.arrRef spec1 w))
    rw [Function.update_of_ne]
    rw [e]
    exact StableHlo.devRef_ne_of_ne (by decide)

/-- Every buffer but the distance matrix's is as region 1 found it. -/
theorem hrest1 (c : Dev nD) (b : Ref sig .tc) (hb : b ∉ Finset.univ.image (Pipeline.arrRef spec1)) : VC m c b = VB m c b := by
  show Function.update (VBv m c) main_v29 (y1 m c) (Proc.devRef .tc b) = _
  rw [Function.update_of_ne]
  refine StableHlo.devRef_ne_of_ne fun e => hb ?_
  subst e
  exact Finset.mem_image.mpr ⟨2, Finset.mem_univ _, rfl⟩

/-- Entry: every unscoped buffer at what region 1 finds gives its windows' arrays at their entry contents — the
    embedding's buffer as two half shares — and the rest. -/
theorem entry1 (c : Dev nD) :
    (StableHlo.held (c : Thread nD τ) (Pipeline.ucRefs τ sig) (VBv m c) : sProp 𝕄)
      ⊢ iprop((dat1 (VB m) c).arrays ((dat1 (VB m) c).arrAt · 0)
          ∗ Pipeline.unscopedRest (Ix := Unit) (Name := ℕ) (U := UR sig nD τ) (Lvl := ℕ) spec1 c (VB m c)) := by
  rw [← Pipeline.unscopedBufs_held (Ix := Unit) (Name := ℕ) (U := UR sig nD τ) (Lvl := ℕ) c (VBv m c),
    Pipeline.unscopedBufs_split₀ cfgs 1 Gen.winFacts₀1.arr_unscoped c (VB m c)]
  exact sep_mono (arrBufs1_split (VB m) c (VB m c)) .rfl

/-- Exit: the arrays at what the pipeline leaves — the two half shares at one contents joined — and the rest are
    every unscoped buffer at the contents with the distance matrix updated. -/
theorem exit1 (c : Dev nD) :
    iprop((dat1 (VB m) c).arrays ((dat1 (VB m) c).arrAt · cfg1.N)
        ∗ Pipeline.unscopedRest (Ix := Unit) (Name := ℕ) (U := UR sig nD τ) (Lvl := ℕ) spec1 c (VB m c))
      ⊢ (StableHlo.held (c : Thread nD τ) (Pipeline.ucRefs τ sig) (VCv m c) : sProp 𝕄) := by
  rw [← Pipeline.unscopedBufs_held (Ix := Unit) (Name := ℕ) (U := UR sig nD τ) (Lvl := ℕ) c (VCv m c),
    Pipeline.unscopedBufs_split₀ cfgs 1 Gen.winFacts₀1.arr_unscoped c (VC m c),
    show ((dat1 (VB m) c).arrAt · cfg1.N) = fun w => VC m c (Pipeline.arrRef spec1 w) from funext (hF1 m c)]
  refine sep_mono (arrBufs1_join (VB m) c (VC m c)) (Entails.of_eq ?_)
  unfold Pipeline.unscopedRest
  exact bigSep_congr fun b hb => by rw [hrest1 m c b (Finset.mem_sdiff.mp hb).2]

/-! ## The regions as segments -/

set_option backward.isDefEq.respectTransparency.types false in
/-- Region 0 over the thread state: entered from every unscoped buffer after the host prefix, left with the
    embedding's buffer at what the pipeline wrote. Its arrays are split out of the unscoped buffers and put back;
    the generator register goes into the region's invariant and comes out; nothing is owed. -/
def reg0 (hb0 : ∀ c, BodyObligation (dat0 (F := F) (VA m) c) (defs₀ (F := F)) Variants.none () Set.univ) :
    Pipeline.RegionSeg (pcfgs (F := F)) Gen.adm (pdats m) () defs₀ 𝒱₀ L lv 0 where
  win := Gen.launch0.win.to₀
  block_pos := Gen.launch0.block_pos
  stage_whole := Gen.launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (VA m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer with the embedding in place, left with the
    distance matrix's buffer at what the pipeline wrote. The embedding's buffer enters as two half shares, one per
    reading window, and is joined again at the exit. -/
def reg1 (hb1 : ∀ c, BodyObligation (dat1 (F := F) (VB m) c) (defs₀ (F := F)) Variants.none () Set.univ) :
    Pipeline.RegionSeg (pcfgs (F := F)) Gen.adm (pdats m) () defs₀ 𝒱₀ L lv 1 where
  win := Gen.winFacts₀1
  block_pos := Gen.block_pos1
  stage_whole := Gen.stage_whole1
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (VBv m c) ∗ R c)
  post c := iprop(StableHlo.held (c : Thread nD τ) (Pipeline.ucRefs τ sig) (VCv m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.KRegion0Body.lean ====
/-
  Region 0 — the row-tiled MLP — the body at one grid point. Each of the thirteen input buffers holds the block its
  window reads there: rows 1024·t … of the neighbour means and of the features, and the whole of every weight and
  bias. The body loads them all whole (the first ten in a first part, which also computes the three hidden ReLU
  layers), and stores ONE whole 1024×3 block: the last two layers applied to the first part's result. The weights
  and biases are fetched once, at the first point; afterwards their block index stands still and the buffers keep
  their blocks.
-/
import proofs.«148003_j26620207301223_1_alg».proof.Proof.KRegion0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input buffers hold their blocks -/

/-- An input window's current buffer holds its block at every point, fetched there or not, for any proof data
    whose array is the entry contents and whose body leaves the block in place: unfetched, the block index has
    not moved since the last fetch. Every window is uncut and never idle. One statement per window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

theorem before0_2 (c : Dev nD) (t : Fin cfg0.N) (d) : (dat0 V c).before 2 t d = iblk0 V c 2 t :=
  before0_2_of V (dat0 V c) (A_eq0 V c 2) (after0_2 V c) t d

theorem before0_3 (c : Dev nD) (t : Fin cfg0.N) (d) : (dat0 V c).before 3 t d = iblk0 V c 3 t :=
  before0_3_of V (dat0 V c) (A_eq0 V c 3) (after0_3 V c) t d

theorem before0_4 (c : Dev nD) (t : Fin cfg0.N) (d) : (dat0 V c).before 4 t d = iblk0 V c 4 t :=
  before0_4_of V (dat0 V c) (A_eq0 V c 4) (after0_4 V c) t d

theorem before0_5 (c : Dev nD) (t : Fin cfg0.N) (d) : (dat0 V c).before 5 t d = iblk0 V c 5 t :=
  before0_5_of V (dat0 V c) (A_eq0 V c 5) (after0_5 V c) t d

theorem before0_6 (c : Dev nD) (t : Fin cfg0.N) (d) : (dat0 V c).before 6 t d = iblk0 V c 6 t :=
  before0_6_of V (dat0 V c) (A_eq0 V c 6) (after0_6 V c) t d

theorem before0_7 (c : Dev nD) (t : Fin cfg0.N) (d) : (dat0 V c).before 7 t d = iblk0 V c 7 t :=
  before0_7_of V (dat0 V c) (A_eq0 V c 7) (after0_7 V c) t d

theorem before0_8 (c : Dev nD) (t : Fin cfg0.N) (d) : (dat0 V c).before 8 t d = iblk0 V c 8 t :=
  before0_8_of V (dat0 V c) (A_eq0 V c 8) (after0_8 V c) t d

theorem before0_9 (c : Dev nD) (t : Fin cfg0.N) (d) : (dat0 V c).before 9 t d = iblk0 V c 9 t :=
  before0_9_of V (dat0 V c) (A_eq0 V c 9) (after0_9 V c) t d

theorem before0_10 (c : Dev nD) (t : Fin cfg0.N) (d) : (dat0 V c).before 10 t d = iblk0 V c 10 t :=
  before0_10_of V (dat0 V c) (A_eq0 V c 10) (after0_10 V c) t d

theorem before0_11 (c : Dev nD) (t : Fin cfg0.N) (d) : (dat0 V c).before 11 t d = iblk0 V c 11 t :=
  before0_11_of V (dat0 V c) (A_eq0 V c 11) (after0_11 V c) t d

theorem before0_12 (c : Dev nD) (t : Fin cfg0.N) (d) : (dat0 V c).before 12 t d = iblk0 V c 12 t :=
  before0_12_of V (dat0 V c) (A_eq0 V c 12) (after0_12 V c) t d

/-! ## The body's triple -/

set_option maxHeartbeats 1000000 in
/-- The body on whole buffers, the thirteen inputs' at read contents `x0 … x12` and the output's at anything, runs to
    the continuation holding the inputs' as they were and the output's at `out0_13 x0 … x12`: thirteen whole loads,
    ten of them in the first part, whose result (the third hidden layer, with the fourth layer's weights and a zero
    block) the rest of the body takes, and one whole store of the last two layers' payload. -/
theorem sound_kernel0 (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x3 .f32) (harg12 : arg12.IsWhole) (arg13 : Memref sig .tc .vmem S1x3 .f32) (harg13 : arg13.IsWhole) (arg14 : Memref sig .tc .vmem S1024x3 .f32) (harg14 : arg14.IsWhole)
    (x0 : Vec F S1024x512 .f32) (x1 : Vec F S1024x512 .f32) (x2 : Vec F S512x512 .f32) (x3 : Vec F S1x512 .f32) (x4 : Vec F S512x512 .f32) (x5 : Vec F S512x256 .f32) (x6 : Vec F S1x256 .f32) (x7 : Vec F S256x128 .f32) (x8 : Vec F S1x128 .f32) (x9 : Vec F S128x64 .f32) (x10 : Vec F S1x64 .f32) (x11 : Vec F S64x3 .f32) (x12 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12)) -∗ K ⟨⟩))
      ⊢ wp frame (wpE (defs₀ (F := F)) Variants.none c none) E (cc0__sage_mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__sage_mlp_kernel_eq_skeleton]; unfold cc0__sage_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover0_13 _)

/-! ## The body obligation, at a generic point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point: the inputs' buffers hold their blocks, so the triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Body.lean ====
/-
  Region 1 — the pairwise distances — the body at one grid point. The two input buffers hold the row blocks the
  point (i, j) reads (rows 1024·i … and rows 1024·j … of the embedding); the body loads both whole, and stores ONE
  whole 1024×1024 block whose value is the distance payload of the two loaded blocks. The first window moves only
  when i changes, so it is fetched at the points ≡ 0 mod 8 only; between two fetches its block index stands still
  and the buffer still holds the block.
-/
import proofs.«148003_j26620207301223_1_alg».proof.Proof.KRegion1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input buffers hold their blocks -/

/-- An input window's current buffer holds its block at every point, fetched there or not, for any proof data
    whose array is the entry contents and whose body leaves the block in place: unfetched, the block index has
    not moved since the last fetch. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

/-! ## The body's triple -/

set_option maxHeartbeats 1000000 in
/-- The body on whole buffers, the two inputs' at read contents `x0`, `x1` and the output's at anything, runs to
    the continuation holding the inputs' as they were and the output's at `out1_2 x0 x1`: two whole loads, one
    whole store of the distance payload (the load of the output before the store reads nothing that is kept). -/
theorem sound_kernel1 (c : Dev nD) (E : Set ℕ) (i : grid1.Coords) (arg2 : Memref sig .tc .vmem S1024x3 .f32) (harg2 : arg2.IsWhole) (arg3 : Memref sig .tc .vmem S1024x3 .f32) (harg3 : arg3.IsWhole) (arg4 : Memref sig .tc .vmem S1024x1024 .f32) (harg4 : arg4.IsWhole)
    (x0 : Vec F S1024x3 .f32) (x1 : Vec F S1024x3 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__cdist_kernel i arg2 harg2 arg3 harg3 arg4 harg4) K := by
  simp only [cc1__cdist_kernel_eq_skeleton]; unfold cc1__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation, at a generic point -/

/-- What the body is called with at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KMain.lean ====
/-
  The whole run. The two regions' records, each with its kernel body's obligation, are chained with the host
  prefix: the launch gives every core its generator register and no dues, each step hands the next exactly the
  buffer contents it expects, and at the end the buffers are read back.
-/
import proofs.«148003_j26620207301223_1_alg».proof.Proof.KFrame
import proofs.«148003_j26620207301223_1_alg».proof.Proof.KRegion0Body
import proofs.«148003_j26620207301223_1_alg».proof.Proof.KRegion1Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- One core's launch resources give its rest state: the generator register at its launch state, nothing owed. -/
theorem launch_rest_core (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
      ⊢ R (F := F) c := by
  iintro ⟨-, HO, -, Hp, -⟩
  isplitl [Hp]; · iexists _; iexact Hp
  iexists ∅; iexact HO

/-- The launch makes the rest state on every core at once. -/
theorem launch_rest (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  iintro ⟨H, -⟩
  imodintro
  iapply (show (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
      ⊢ (bigSep Finset.univ (fun c : Dev nD => R (F := F) c) : sProp 𝕄) from bigSep_mono fun c _ => launch_rest_core ρ c)
  iexact H

/-- The launch element yields the pipeline library's, and nothing per core. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- The program's frame: every weakly fair execution from `m` with zero counters terminates without fault, and
    every argument ends as launched. -/
theorem frame_main (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Gen.frame_cond (F := F) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := launch_elem) (E := fun _ c => R c) (hE0 := launch_rest ρ)
    (hE2 := fun c => by iintro ⟨-, H⟩; iexact H)
    (R0 := reg0 m fun c => body_obligation0 (VA m) c) (hpre0 := fun c => .rfl) (hpost0 := fun c => .rfl)
    (R1 := reg1 m fun c => body_obligation1 (VB m) c)
    (hpre1 := fun c => by rw [V2_eq]; exact .rfl) (hpost1 := fun c => by rw [V3_eq]; exact .rfl)

end Cert.Kernel.Hand

end
-- ==== Proof.KIRegion0Defs.lean ====
/-
  Region 0 — the row-tiled MLP — as the pipeline sees it: the grid has 8 points, point `t` works on rows
  1024·t … 1024·t+1023. Each input window's block at a point is read off its array; the weights and biases are
  whole-array blocks, the same at every point. The one output block of 1024×3 is what the body stores: the last
  linear layer applied to four ReLU layers, the first of which adds the neighbour and the root products.
-/
import proofs.«148003_j26620207301223_1_alg».proof.Proof.Gen.KernelIdeal.Launch
import proofs.«148003_j26620207301223_1_alg».proof.Proof.Gen.KernelIdeal.Skeleton
import proofs.«148003_j26620207301223_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024×3 block, the one rectangle the body stores through. -/
abbrev rOut0 : Rect S1024x3 := (Rect.unit (s := S1024x3) ![0, 0] S1024x3.size inb_S1024x3_S1024x3_0_0)

/-- The output block after the body, from the thirteen input blocks: the body's single store, its value the
    five-layer network of the loaded blocks. -/
def out0_13 (x0 : Vec F S1024x512 .f32) (x1 : Vec F S1024x512 .f32) (x2 : Vec F S512x512 .f32) (x3 : Vec F S1x512 .f32) (x4 : Vec F S512x512 .f32) (x5 : Vec F S512x256 .f32) (x6 : Vec F S1x256 .f32) (x7 : Vec F S256x128 .f32) (x8 : Vec F S1x128 .f32) (x9 : Vec F S128x64 .f32) (x10 : Vec F S1x64 .f32) (x11 : Vec F S64x3 .f32) (x12 : Vec F S1x3 .f32) : Vec F S1024x3 .f32 :=
  View.canon [⟨rOut0, k0_pay1 (k0_pay2 (View.ld x0 (Rect.unit (s := S1024x512) ![0, 0] S1024x512.size inb_S1024x512_S1024x512_0_0)) (View.ld x1 (Rect.unit (s := S1024x512) ![0, 0] S1024x512.size inb_S1024x512_S1024x512_0_0)) (View.ld x2 (Rect.unit (s := S512x512) ![0, 0] S512x512.size inb_S512x512_S512x512_0_0)) (View.ld x3 (Rect.unit (s := S1x512) ![0, 0] S1x512.size inb_S1x512_S1x512_0_0)) (View.ld x4 (Rect.unit (s := S512x512) ![0, 0] S512x512.size inb_S512x512_S512x512_0_0)) (View.ld x5 (Rect.unit (s := S512x256) ![0, 0] S512x256.size inb_S512x256_S512x256_0_0)) (View.ld x6 (Rect.unit (s := S1x256) ![0, 0] S1x256.size inb_S1x256_S1x256_0_0)) (View.ld x7 (Rect.unit (s := S256x128) ![0, 0] S256x128.size inb_S256x128_S256x128_0_0)) (View.ld x8 (Rect.unit (s := S1x128) ![0, 0] S1x128.size inb_S1x128_S1x128_0_0)))
    (View.ld x9 (Rect.unit (s := S128x64) ![0, 0] S128x64.size inb_S128x64_S128x64_0_0)) (constant S1024x64 .f32 0x00000000#32)
    (View.ld x10 (Rect.unit (s := S1x64) ![0, 0] S1x64.size inb_S1x64_S1x64_0_0)) (View.ld x11 (Rect.unit (s := S64x3) ![0, 0] S64x3.size inb_S64x3_S64x3_0_0)) (View.ld x12 (Rect.unit (s := S1x3) ![0, 0] S1x3.size inb_S1x3_S1x3_0_0))⟩]

/-- The single store covers the block. -/
theorem cover0_13 (p0 : Vec F S1024x3 .f32) (y : S1024x3.Idx) :
    ∃ pc ∈ ([⟨rOut0, p0⟩] : List (View.Piece (Elt F) S1024x3 .f32)), y ∈ pc.1.set :=
  View.cover_of_tiled [⟨rOut0, p0⟩] S1024x3.size (by rfl) y

/-- The proof data of region 0 on core `c`: the arrays as the region finds them; after the body each input's
    buffer still holds its block and the output's holds `out0_13` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]

end Cert.KernelIdeal.Hand

end
-- ==== Proof.KIRegion1Defs.lean ====
/-
  Region 1 — the pairwise distances — as the pipeline sees it: an 8×8 grid, point (i, j) reads rows
  1024·i … of the embedding through its first window and rows 1024·j … of the SAME embedding through its second,
  and stores the 1024×1024 block of distances between the two row sets. Both input windows look at one array,
  so each holds half of that array's share; a read needs no more.
-/
import proofs.«148003_j26620207301223_1_alg».proof.Proof.Gen.KernelIdeal.Launch
import proofs.«148003_j26620207301223_1_alg».proof.Proof.Gen.KernelIdeal.Skeleton
import proofs.«148003_j26620207301223_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1024×1024 block, the one rectangle the body stores through. -/
abbrev rOut1 : Rect S1024x1024 := (Rect.unit (s := S1024x1024) ![0, 0] S1024x1024.size inb_S1024x1024_S1024x1024_0_0)

/-- The output block after the body, from the two row blocks: the body's single store. -/
def out1_2 (x0 : Vec F S1024x3 .f32) (x1 : Vec F S1024x3 .f32) : Vec F S1024x1024 .f32 :=
  View.canon [⟨rOut1, k1_pay1 (View.ld x0 (Rect.unit (s := S1024x3) ![0, 0] S1024x3.size inb_S1024x3_S1024x3_0_0)) (View.ld x1 (Rect.unit (s := S1024x3) ![0, 0] S1024x3.size inb_S1024x3_S1024x3_0_0))⟩]

/-- The single store covers the block. -/
theorem cover1_2 (p0 : Vec F S1024x1024 .f32) (y : S1024x1024.Idx) :
    ∃ pc ∈ ([⟨rOut1, p0⟩] : List (View.Piece (Elt F) S1024x1024 .f32)), y ∈ pc.1.set :=
  View.cover_of_tiled [⟨rOut1, p0⟩] S1024x1024.size (by rfl) y

/-- The proof data of region 1 on core `c`: the arrays as the region finds them; after the body each input's
    buffer still holds its block and the output's holds `out1_2` of the two; nothing owed; the two input windows,
    which read one array, hold the two halves of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Cert.KernelIdeal.Hand

end
-- ==== Proof.KIShare1.lean ====
/-
  Region 1's three windows look at two arrays: both input windows at the embedding, the output window at the
  distance matrix. Held whole at the full share, the two buffers are exactly the three windows' arrays at the
  shares the proof data name — the embedding's full share split into its left and right halves, one per reading
  window — and conversely the two halves at one contents join back into the whole.
-/
import proofs.«148003_j26620207301223_1_alg».proof.Proof.KIRegion1Defs
import Idealize.ShloMosaic.Lib.Pipeline.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The distinct buffers behind region 1's arrays: the embedding and the distance matrix. -/
theorem arrImage1 : (Finset.univ.image (Pipeline.arrRef spec1) : Finset (Ref sig .tc)) = {main_v28, main_v29} := by decide

/-- Splitting: the two buffers whole at contents `W` give the three windows' arrays at `W`, the embedding's share halved. -/
theorem arrBufs1_split (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      ⊢ (dat1 V c).arrays (fun w => W (Pipeline.arrRef spec1 w)) := by
  unfold Pipeline.arrBufs Dat.arrays
  rw [arrImage1, bigSep_insert (by decide), bigSep_singleton, Gen.bigSep_W1]
  have h0 : (dat1 V c).share 0 = fullShare.left := rfl
  have h1 : (dat1 V c).share 1 = fullShare.right := rfl
  have h2 : (dat1 V c).share 2 = fullShare := rfl
  rw [h0, h1, h2, (Gen.arr_whole1 0).set_eq_univ, (Gen.arr_whole1 2).set_eq_univ]
  show iprop((((c : Thread nD τ).loc main_v28) ↦{fullShare} W main_v28) ∗ ((c : Thread nD τ).loc main_v29) ↦{fullShare} W main_v29) ⊢ _
  iintro ⟨H28, H29⟩
  ihave H := (pointsTo_share (PosShare.mem_left_op_right fullShare)).1 $$ H28
  icases H with ⟨Hl, Hr⟩
  isplitl [Hl]; · iexact Hl
  isplitl [Hr]; · iexact Hr
  iexact H29

/-- Joining: the three windows' arrays at `W` give back the two buffers whole at `W`. -/
theorem arrBufs1_join (c : Dev nD) (W : (b : Ref sig .tc) → Buf (Elt F) ((c : Thread nD τ).loc b)) :
    (dat1 V c).arrays (fun w => W (Pipeline.arrRef spec1 w))
      ⊢ (Pipeline.arrBufs (Ix := Unit) (Name := ℕ) (U := UR sig nD τ) (Lvl := ℕ) spec1 c W : sProp 𝕄) := by
  unfold Pipeline.arrBufs Dat.arrays
  rw [arrImage1, bigSep_insert (by decide), bigSep_singleton, Gen.bigSep_W1]
  have h0 : (dat1 V c).share 0 = fullShare.left := rfl
  have h1 : (dat1 V c).share 1 = fullShare.right := rfl
  have h2 : (dat1 V c).share 2 = fullShare := rfl
  rw [h0, h1, h2, (Gen.arr_whole1 0).set_eq_univ, (Gen.arr_whole1 2).set_eq_univ]
  show _ ⊢ iprop((((c : Thread nD τ).loc main_v28) ↦{fullShare} W main_v28) ∗ ((c : Thread nD τ).loc main_v29) ↦{fullShare} W main_v29)
  iintro ⟨Hl, Hr, H29⟩
  isplitl [Hl Hr]
  · iapply (pointsTo_share (PosShare.mem_left_op_right fullShare)).2
    isplitl [Hl]; · iexact Hl
    iexact Hr
  iexact H29

end Cert.KernelIdeal.Hand

end
-- ==== Proof.KIFrame.lean ====
/-
  The two regions as steps of the whole program.

  Between its steps the program holds every unscoped buffer at known contents: the launch contents, then what the
  host prefix computes, then the embedding as the row-tiled network leaves it, then the distance matrix as the
  tiled distance kernel leaves it. Each region takes its windows' arrays out of that state, runs its pipeline, and
  puts them back with its output array updated; the second region reads the embedding through two windows, so it
  takes that one buffer as two half shares and joins them again when it is done. No region writes an argument,
  which is the frame claim.
-/
import proofs.«148003_j26620207301223_1_alg».proof.Proof.Gen.KernelIdeal.Regions
import proofs.«148003_j26620207301223_1_alg».proof.Proof.KIRegion0Defs
import proofs.«148003_j26620207301223_1_alg».proof.Proof.KIRegion1Defs
import proofs.«148003_j26620207301223_1_alg».proof.Proof.KIShare1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between the steps -/

/-- What region 0 finds: the launch contents after the host prefix, read at the TensorCore's references. -/
abbrev VA : (c : Dev nD) → (b : Ref sig .tc) → Buf (Elt F) ((c : Thread nD τ).loc b) := fun c b => Gen.V1 m c b

/-- The embedding as region 0 leaves it: its write-backs folded over the grid. -/
def y0 (c : Dev nD) : Buf (Elt F) ((c : Thread nD τ).loc main_v28) := (dat0 (VA m) c).arrAt 13 cfg0.N

/-- What region 1 finds: the same, the embedding's buffer at what region 0 left. -/
abbrev VBv (c : Dev nD) : Valuation τ sig (Elt F) := Function.update (Gen.V1 m c) main_v28 (y0 m c)
abbrev VB : (c : Dev nD) → (b : Ref sig .tc) → Buf (Elt F) ((c : Thread nD τ).loc b) := fun c b => VBv m c b

/-- The distance matrix as region 1 leaves it. -/
def y1 (c : Dev nD) : Buf (Elt F) ((c : Thread nD τ).loc main_v29) := (dat1 (VB m) c).arrAt 2 cfg1.N

/-- The end: the distance matrix's buffer at what region 1 left. -/
abbrev VCv (c : Dev nD) : Valuation τ sig (Elt F) := Function.update (VBv m c) main_v29 (y1 m c)
abbrev VC : (c : Dev nD) → (b : Ref sig .tc) → Buf (Elt F) ((c : Thread nD τ).loc b) := fun c b => VCv m c b

/-- What the regions leave in the two buffers they may change. -/
def outs : Gen.Outs (F := F) := fun _ r c =>
  if h : r = main_v28 then h ▸ y0 m c
  else if h' : r = main_v29 then h' ▸ y1 m c
  else m ((c : Thread nD τ).loc r)

theorem outs_v28 (c : Dev nD) : outs m 2 main_v28 c = y0 m c := by
  unfold outs; rw [dif_pos rfl]
theorem outs_v29 (c : Dev nD) : outs m 3 main_v29 c = y1 m c := by
  unfold outs; rw [dif_neg (by decide), dif_pos rfl]

theorem V2_eq (c : Dev nD) : Gen.V2 m (outs m) c = VBv m c := by
  show Function.update (Gen.V1 m c) main_v28 (outs m 2 main_v28 c) = _
  rw [outs_v28]
theorem V3_eq (c : Dev nD) : Gen.V3 m (outs m) c = VCv m c := by
  show Function.update (Gen.V2 m (outs m) c) main_v29 (outs m 3 main_v29 c) = _
  rw [outs_v29, V2_eq]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every step: the core's generator register at some state and its dues, none. -/
abbrev R (c : Dev nD) : sProp 𝕄 := iprop((∃ r, prngReg c r) ∗ ∃ W, owes (c : Thread nD τ) (0 : CellTallies nD τ sig Unit) W)

/-! ## Region 0: every window has an array of its own -/

/-- Every window of region 0 but the last is an input, and the embedding's buffer is no input's array. -/
theorem isIn0 : ∀ w : Fin 14, w ≠ 13 → (cfg0.win w).isOut = false := by decide
theorem arrNe0 : ∀ w : Fin 14, w ≠ 13 → Pipeline.arrRef spec0 w ∉ ([main_v28] : List (Ref sig .tc)) := by decide

/-- After region 0 each of its arrays holds what the pipeline leaves: an input its entry contents, the output the embedding. -/
theorem hF0 (c : Dev nD) (w : Fin cfg0.W) : (dat0 (VA m) c).arrAt w cfg0.N = Gen.V2 m (outs m) c (Pipeline.arrRef spec0 w) := by
  by_cases h : w = 13
  · subst h
    show y0 m c = Function.update (Gen.V1 m c) main_v28 (outs m 2 main_v28 c) main_v28
    rw [Function.update_self, outs_v28]
  · exact ((dat0 (VA m) c).arrAt_in w (isIn0 w h) _).trans
      ((A_eq0 (VA m) c w).trans (Gen.V2_of m (outs m) c _ (arrNe0 w h)).symm)

/-- Every other buffer is as region 0 found it. -/
theorem hrest0 (c : Dev nD) : ∀ b, b ∉ Finset.univ.image (Pipeline.arrRef spec0) → Gen.V2 m (outs m) c b = Gen.V1 m c b := fun b hb =>
  Gen.V2_of m (outs m) c b (by
    intro h
    exact hb (Finset.mem_image.mpr ⟨13, Finset.mem_univ _, (List.mem_singleton.mp h).symm⟩))

/-! ## Region 1: two windows read one array -/

theorem isIn1 : ∀ w : Fin 3, w ≠ 2 → (cfg1.win w).isOut = false := by decide
theorem arrEq1 : ∀ w : Fin 3, w ≠ 2 → Pipeline.arrRef spec1 w = main_v28 := by decide

/-- After region 1 each of its arrays holds what the pipeline leaves: the embedding as found, the output the distances. -/
theorem hF1 (c : Dev nD) (w : Fin cfg1.W) : (dat1 (VB m) c).arrAt w cfg1.N = VC m c (Pipeline.arrRef spec1 w) := by
  by_cases h : w = 2
  · subst h
    show y1 m c = Function.update (VBv m c) main_v29 (y1 m c) main_v29
    rw [Function.update_self]
  · refine ((dat1 (VB m) c).arrAt_in w (isIn1 w h) _).trans ((A_eq1 (VB m) c w).trans ?_)
    have e := arrEq1 w h
    show VBv m c (Proc.devRef .tc (Pipeline.arrRef spec1 w)) = Function.update (VBv m c) main_v29 (y1 m c) (Proc.devRef .tc (Pipeline.arrRef spec1 w))
    rw [Function.update_of_ne]
    rw [e]
    exact StableHlo.devRef_ne_of_ne (by decide)

/-- Every buffer but the distance matrix's is as region 1 found it. -/
theorem hrest1 (c : Dev nD) (b : Ref sig .tc) (hb : b ∉ Finset.univ.image (Pipeline.arrRef spec1)) : VC m c b = VB m c b := by
  show Function.update (VBv m c) main_v29 (y1 m c) (Proc.devRef .tc b) = _
  rw [Function.update_of_ne]
  refine StableHlo.devRef_ne_of_ne fun e => hb ?_
  subst e
  exact Finset.mem_image.mpr ⟨2, Finset.mem_univ _, rfl⟩

/-- Entry: every unscoped buffer at what region 1 finds gives its windows' arrays at their entry contents — the
    embedding's buffer as two half shares — and the rest. -/
theorem entry1 (c : Dev nD) :
    (StableHlo.held (c : Thread nD τ) (Pipeline.ucRefs τ sig) (VBv m c) : sProp 𝕄)
      ⊢ iprop((dat1 (VB m) c).arrays ((dat1 (VB m) c).arrAt · 0)
          ∗ Pipeline.unscopedRest (Ix := Unit) (Name := ℕ) (U := UR sig nD τ) (Lvl := ℕ) spec1 c (VB m c)) := by
  rw [← Pipeline.unscopedBufs_held (Ix := Unit) (Name := ℕ) (U := UR sig nD τ) (Lvl := ℕ) c (VBv m c),
    Pipeline.unscopedBufs_split₀ cfgs 1 Gen.winFacts₀1.arr_unscoped c (VB m c)]
  exact sep_mono (arrBufs1_split (VB m) c (VB m c)) .rfl

/-- Exit: the arrays at what the pipeline leaves — the two half shares at one contents joined — and the rest are
    every unscoped buffer at the contents with the distance matrix updated. -/
theorem exit1 (c : Dev nD) :
    iprop((dat1 (VB m) c).arrays ((dat1 (VB m) c).arrAt · cfg1.N)
        ∗ Pipeline.unscopedRest (Ix := Unit) (Name := ℕ) (U := UR sig nD τ) (Lvl := ℕ) spec1 c (VB m c))
      ⊢ (StableHlo.held (c : Thread nD τ) (Pipeline.ucRefs τ sig) (VCv m c) : sProp 𝕄) := by
  rw [← Pipeline.unscopedBufs_held (Ix := Unit) (Name := ℕ) (U := UR sig nD τ) (Lvl := ℕ) c (VCv m c),
    Pipeline.unscopedBufs_split₀ cfgs 1 Gen.winFacts₀1.arr_unscoped c (VC m c),
    show ((dat1 (VB m) c).arrAt · cfg1.N) = fun w => VC m c (Pipeline.arrRef spec1 w) from funext (hF1 m c)]
  refine sep_mono (arrBufs1_join (VB m) c (VC m c)) (Entails.of_eq ?_)
  unfold Pipeline.unscopedRest
  exact bigSep_congr fun b hb => by rw [hrest1 m c b (Finset.mem_sdiff.mp hb).2]

/-! ## The regions as segments -/

set_option backward.isDefEq.respectTransparency.types false in
/-- Region 0 over the thread state: entered from every unscoped buffer after the host prefix, left with the
    embedding's buffer at what the pipeline wrote. Its arrays are split out of the unscoped buffers and put back;
    the generator register goes into the region's invariant and comes out; nothing is owed. -/
def reg0 (hb0 : ∀ c, BodyObligation (dat0 (F := F) (VA m) c) (defs₀ (F := F)) Variants.none () Set.univ) :
    Pipeline.RegionSeg (pcfgs (F := F)) Gen.adm (pdats m) () defs₀ 𝒱₀ L lv 0 where
  win := Gen.launch0.win.to₀
  block_pos := Gen.launch0.block_pos
  stage_whole := Gen.launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (VA m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer with the embedding in place, left with the
    distance matrix's buffer at what the pipeline wrote. The embedding's buffer enters as two half shares, one per
    reading window, and is joined again at the exit. -/
def reg1 (hb1 : ∀ c, BodyObligation (dat1 (F := F) (VB m) c) (defs₀ (F := F)) Variants.none () Set.univ) :
    Pipeline.RegionSeg (pcfgs (F := F)) Gen.adm (pdats m) () defs₀ 𝒱₀ L lv 1 where
  win := Gen.winFacts₀1
  block_pos := Gen.block_pos1
  stage_whole := Gen.stage_whole1
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (VBv m c) ∗ R c)
  post c := iprop(StableHlo.held (c : Thread nD τ) (Pipeline.ucRefs τ sig) (VCv m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KIRegion0Body.lean ====
/-
  Region 0 — the row-tiled MLP — the body at one grid point. Each of the thirteen input buffers holds the block its
  window reads there: rows 1024·t … of the neighbour means and of the features, and the whole of every weight and
  bias. The body loads them all whole (the first ten in a first part, which also computes the three hidden ReLU
  layers), and stores ONE whole 1024×3 block: the last two layers applied to the first part's result. The weights
  and biases are fetched once, at the first point; afterwards their block index stands still and the buffers keep
  their blocks.
-/
import proofs.«148003_j26620207301223_1_alg».proof.Proof.KIRegion0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input buffers hold their blocks -/

/-- An input window's current buffer holds its block at every point, fetched there or not, for any proof data
    whose array is the entry contents and whose body leaves the block in place: unfetched, the block index has
    not moved since the last fetch. Every window is uncut and never idle. One statement per window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

theorem before0_2 (c : Dev nD) (t : Fin cfg0.N) (d) : (dat0 V c).before 2 t d = iblk0 V c 2 t :=
  before0_2_of V (dat0 V c) (A_eq0 V c 2) (after0_2 V c) t d

theorem before0_3 (c : Dev nD) (t : Fin cfg0.N) (d) : (dat0 V c).before 3 t d = iblk0 V c 3 t :=
  before0_3_of V (dat0 V c) (A_eq0 V c 3) (after0_3 V c) t d

theorem before0_4 (c : Dev nD) (t : Fin cfg0.N) (d) : (dat0 V c).before 4 t d = iblk0 V c 4 t :=
  before0_4_of V (dat0 V c) (A_eq0 V c 4) (after0_4 V c) t d

theorem before0_5 (c : Dev nD) (t : Fin cfg0.N) (d) : (dat0 V c).before 5 t d = iblk0 V c 5 t :=
  before0_5_of V (dat0 V c) (A_eq0 V c 5) (after0_5 V c) t d

theorem before0_6 (c : Dev nD) (t : Fin cfg0.N) (d) : (dat0 V c).before 6 t d = iblk0 V c 6 t :=
  before0_6_of V (dat0 V c) (A_eq0 V c 6) (after0_6 V c) t d

theorem before0_7 (c : Dev nD) (t : Fin cfg0.N) (d) : (dat0 V c).before 7 t d = iblk0 V c 7 t :=
  before0_7_of V (dat0 V c) (A_eq0 V c 7) (after0_7 V c) t d

theorem before0_8 (c : Dev nD) (t : Fin cfg0.N) (d) : (dat0 V c).before 8 t d = iblk0 V c 8 t :=
  before0_8_of V (dat0 V c) (A_eq0 V c 8) (after0_8 V c) t d

theorem before0_9 (c : Dev nD) (t : Fin cfg0.N) (d) : (dat0 V c).before 9 t d = iblk0 V c 9 t :=
  before0_9_of V (dat0 V c) (A_eq0 V c 9) (after0_9 V c) t d

theorem before0_10 (c : Dev nD) (t : Fin cfg0.N) (d) : (dat0 V c).before 10 t d = iblk0 V c 10 t :=
  before0_10_of V (dat0 V c) (A_eq0 V c 10) (after0_10 V c) t d

theorem before0_11 (c : Dev nD) (t : Fin cfg0.N) (d) : (dat0 V c).before 11 t d = iblk0 V c 11 t :=
  before0_11_of V (dat0 V c) (A_eq0 V c 11) (after0_11 V c) t d

theorem before0_12 (c : Dev nD) (t : Fin cfg0.N) (d) : (dat0 V c).before 12 t d = iblk0 V c 12 t :=
  before0_12_of V (dat0 V c) (A_eq0 V c 12) (after0_12 V c) t d

/-! ## The body's triple -/

set_option maxHeartbeats 1000000 in
/-- The body on whole buffers, the thirteen inputs' at read contents `x0 … x12` and the output's at anything, runs to
    the continuation holding the inputs' as they were and the output's at `out0_13 x0 … x12`: thirteen whole loads,
    ten of them in the first part, whose result (the third hidden layer, with the fourth layer's weights and a zero
    block) the rest of the body takes, and one whole store of the last two layers' payload. -/
theorem sound_kernel0 (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x3 .f32) (harg12 : arg12.IsWhole) (arg13 : Memref sig .tc .vmem S1x3 .f32) (harg13 : arg13.IsWhole) (arg14 : Memref sig .tc .vmem S1024x3 .f32) (harg14 : arg14.IsWhole)
    (x0 : Vec F S1024x512 .f32) (x1 : Vec F S1024x512 .f32) (x2 : Vec F S512x512 .f32) (x3 : Vec F S1x512 .f32) (x4 : Vec F S512x512 .f32) (x5 : Vec F S512x256 .f32) (x6 : Vec F S1x256 .f32) (x7 : Vec F S256x128 .f32) (x8 : Vec F S1x128 .f32) (x9 : Vec F S128x64 .f32) (x10 : Vec F S1x64 .f32) (x11 : Vec F S64x3 .f32) (x12 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12)) -∗ K ⟨⟩))
      ⊢ wp frame (wpE (defs₀ (F := F)) Variants.none c none) E (cc0__sage_mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__sage_mlp_kernel_eq_skeleton]; unfold cc0__sage_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover0_13 _)

/-! ## The body obligation, at a generic point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point: the inputs' buffers hold their blocks, so the triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1Body.lean ====
/-
  Region 1 — the pairwise distances — the body at one grid point. The two input buffers hold the row blocks the
  point (i, j) reads (rows 1024·i … and rows 1024·j … of the embedding); the body loads both whole, and stores ONE
  whole 1024×1024 block whose value is the distance payload of the two loaded blocks. The first window moves only
  when i changes, so it is fetched at the points ≡ 0 mod 8 only; between two fetches its block index stands still
  and the buffer still holds the block.
-/
import proofs.«148003_j26620207301223_1_alg».proof.Proof.KIRegion1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input buffers hold their blocks -/

/-- An input window's current buffer holds its block at every point, fetched there or not, for any proof data
    whose array is the entry contents and whose body leaves the block in place: unfetched, the block index has
    not moved since the last fetch. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

/-! ## The body's triple -/

set_option maxHeartbeats 1000000 in
/-- The body on whole buffers, the two inputs' at read contents `x0`, `x1` and the output's at anything, runs to
    the continuation holding the inputs' as they were and the output's at `out1_2 x0 x1`: two whole loads, one
    whole store of the distance payload (the load of the output before the store reads nothing that is kept). -/
theorem sound_kernel1 (c : Dev nD) (E : Set ℕ) (i : grid1.Coords) (arg2 : Memref sig .tc .vmem S1024x3 .f32) (harg2 : arg2.IsWhole) (arg3 : Memref sig .tc .vmem S1024x3 .f32) (harg3 : arg3.IsWhole) (arg4 : Memref sig .tc .vmem S1024x1024 .f32) (harg4 : arg4.IsWhole)
    (x0 : Vec F S1024x3 .f32) (x1 : Vec F S1024x3 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__cdist_kernel i arg2 harg2 arg3 harg3 arg4 harg4) K := by
  simp only [cc1__cdist_kernel_eq_skeleton]; unfold cc1__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation, at a generic point -/

/-- What the body is called with at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIMain.lean ====
/-
  The whole run. The two regions' records, each with its kernel body's obligation, are chained with the host
  prefix: the launch gives every core its generator register and no dues, each step hands the next exactly the
  buffer contents it expects, and at the end the buffers are read back.
-/
import proofs.«148003_j26620207301223_1_alg».proof.Proof.KIFrame
import proofs.«148003_j26620207301223_1_alg».proof.Proof.KIRunCond
import proofs.«148003_j26620207301223_1_alg».proof.Proof.KIRegion0Body
import proofs.«148003_j26620207301223_1_alg».proof.Proof.KIRegion1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- One core's launch resources give its rest state: the generator register at its launch state, nothing owed. -/
theorem launch_rest_core (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
      ⊢ R (F := F) c := by
  iintro ⟨-, HO, -, Hp, -⟩
  isplitl [Hp]; · iexists _; iexact Hp
  iexists ∅; iexact HO

/-- The launch makes the rest state on every core at once. -/
theorem launch_rest (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  iintro ⟨H, -⟩
  imodintro
  iapply (show (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
      ⊢ (bigSep Finset.univ (fun c : Dev nD => R (F := F) c) : sProp 𝕄) from bigSep_mono fun c _ => launch_rest_core ρ c)
  iexact H

/-- The launch element yields the pipeline library's, and nothing per core. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- The program's run: every weakly fair execution from `m` with zero counters terminates without fault; the result
    buffer ends at the distance matrix as the second region leaves it, and every argument ends as launched. -/
theorem run_main (ρ : Dev nD → PrngReg) :
    θ_run defs (onTc (τ := τ) (main (F := F))) ⟨m, fun _ => 0, ρ⟩ (fun r => ∀ c : Dev nD,
      r.2.mem ((c.tc : Thread nD τ).loc main_v29) = y1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  have h := GenP.run_cond (F := F) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := launch_elem) (E := fun _ c => R c) (hE0 := launch_rest ρ)
    (hE2 := fun c => by iintro ⟨-, H⟩; iexact H)
    (R0 := reg0 m fun c => body_obligation0 (VA m) c) (hpre0 := fun c => .rfl) (hpost0 := fun c => .rfl)
    (R1 := reg1 m fun c => body_obligation1 (VB m) c)
    (hpre1 := fun c => by rw [V2_eq]; exact .rfl) (hpost1 := fun c => by rw [V3_eq]; exact .rfl)
  refine (θ_run _ _ _).mono (fun r hr c => ?_) h
  rw [← outs_v29]; exact hr c

end Cert.KernelIdeal.Hand

end
-- ==== Proof.MlpBlocks.lean ====
/-
  The blocks the row-tiled network loads at a grid point, as entries of the arrays.

  The grid has 8 points; point t works on rows 1024·t … 1024·t + 1023. The two feature windows (neighbour means, own
  features) and the output window have block index (t, 0): entry (p, k) of such a block is entry (1024·t + p, k) of its
  array. The eleven weight and bias windows have block index (0, 0) at every point and their block is the whole array:
  entry (k, j) of the block is entry (k, j) of the array.
-/
import proofs.«148003_j26620207301223_1_alg».proof.Proof.KIRegion0Defs
import Idealize.ShloMosaic.Lib.ValueIdx

set_option maxRecDepth 16384

noncomputable section

namespace Sage

open Idealize.ShloMosaic Idealize.ShloMosaic.TcCoe Idealize.ShloMosaic.ValueIdx
open Cert.KernelIdeal Cert.KernelIdeal.Gen Cert.KernelIdeal.Hand

variable (V : (c : Dev nD) → (b : Ref sig .tc) → Buf (Elt Ideal) ((c : Thread nD τ).loc b))

/-- The block indices of the three windows that move with the grid point: (t, 0). -/
theorem moving_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_13.index t (0 : Fin 2) = t.val ∧ win0_13.index t (1 : Fin 2) = 0 :=
  (by decide +kernel : ∀ t : Fin grid0.N, _)

/-- The block indices of the weight and bias windows: (0, 0) at every point. -/
theorem fixed_index : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- Entry (p, k) of point t's block of the neighbour means is entry (1024·t + p, k) of the array. -/
theorem means_block_apply (c : Dev nD) (t : Fin cfg0.N) (p : Fin 1024) (k : Fin 512) (r : Fin 8192)
    (hr : r.val = 1024 * t.val + p.val) :
    (iblk0 V c 0 t : Vec Ideal S1024x512 .f32) (ix2 p k) = (V c main_v22 : S8192x512.Idx → EReal) (ix2 r k) := by
  obtain ⟨e0, e1, -⟩ := moving_index t
  unfold iblk0
  rw [View.read_apply]
  show V c main_v22 _ = V c main_v22 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 512 + 1 * k.val = k.val; rw [e1]; omega

/-- Entry (p, k) of point t's block of the nodes' own features is entry (1024·t + p, k) of the array. -/
theorem feats_block_apply (c : Dev nD) (t : Fin cfg0.N) (p : Fin 1024) (k : Fin 512) (r : Fin 8192)
    (hr : r.val = 1024 * t.val + p.val) :
    (iblk0 V c 1 t : Vec Ideal S1024x512 .f32) (ix2 p k) = (V c main_arg0 : S8192x512.Idx → EReal) (ix2 r k) := by
  obtain ⟨-, -, e0, e1, -⟩ := moving_index t
  unfold iblk0
  rw [View.read_apply]
  show V c main_arg0 _ = V c main_arg0 _
  congr 1
  funext a
  apply Fin.ext
  match a with
  | ⟨0, _⟩ => show win0_1.index t (0 : Fin 2) * 1024 + 1 * p.val = r.val; rw [e0, hr]; omega
  | ⟨1, _⟩ => show win0_1.index t (1 : Fin 2) * 512 + 1 * k.val = k.val; rw [e1]; omega

/-- The block of the weights applied to the neighbour means is the whole array, at every point. -/
theorem wl_block_apply (c : Dev nD) (t : Fin cfg0.N) (k : Fin 512) (j : Fin 512) :
    (iblk0 V c 2 t : Vec Ideal S512x512 .f32) (ix2 k j) = (V c main_arg2 : S512x512.Idx → EReal) (ix2 k j) := by
  obtain ⟨⟨e0, e1⟩, -⟩ := fixed_index t
  unfold iblk0
  rw [View.read_apply]
  show V c main_arg2 _ = V c main_arg2 _
  congr 1
  funext a
  apply Fin.ext
  match a with
  | ⟨0, _⟩ => show win0_2.index t (0 : Fin 2) * 512 + 1 * k.val = k.val; rw [e0]; omega
  | ⟨1, _⟩ => show win0_2.index t (1 : Fin 2) * 512 + 1 * j.val = j.val; rw [e1]; omega

/-- The block of the first layer's bias row is the whole array, at every point. -/
theorem bl_block_apply (c : Dev nD) (t : Fin cfg0.N) (k : Fin 1) (j : Fin 512) :
    (iblk0 V c 3 t : Vec Ideal S1x512 .f32) (ix2 k j) = (V c main_v23 : S1x512.Idx → EReal) (ix2 k j) := by
  obtain ⟨-, ⟨e0, e1⟩, -⟩ := fixed_index t
  unfold iblk0
  rw [View.read_apply]
  show V c main_v23 _ = V c main_v23 _
  congr 1
  funext a
  apply Fin.ext
  match a with
  | ⟨0, _⟩ => show win0_3.index t (0 : Fin 2) * 1 + 1 * k.val = k.val; rw [e0]; omega
  | ⟨1, _⟩ => show win0_3.index t (1 : Fin 2) * 512 + 1 * j.val = j.val; rw [e1]; omega

/-- The block of the weights applied to the own features is the whole array, at every point. -/
theorem wr_block_apply (c : Dev nD) (t : Fin cfg0.N) (k : Fin 512) (j : Fin 512) :
    (iblk0 V c 4 t : Vec Ideal S512x512 .f32) (ix2 k j) = (V c main_arg4 : S512x512.Idx → EReal) (ix2 k j) := by
  obtain ⟨-, -, ⟨e0, e1⟩, -⟩ := fixed_index t
  unfold iblk0
  rw [View.read_apply]
  show V c main_arg4 _ = V c main_arg4 _
  congr 1
  funext a
  apply Fin.ext
  match a with
  | ⟨0, _⟩ => show win0_4.index t (0 : Fin 2) * 512 + 1 * k.val = k.val; rw [e0]; omega
  | ⟨1, _⟩ => show win0_4.index t (1 : Fin 2) * 512 + 1 * j.val = j.val; rw [e1]; omega

/-- The block of the second layer's weights is the whole array, at every point. -/
theorem wa_block_apply (c : Dev nD) (t : Fin cfg0.N) (k : Fin 512) (j : Fin 256) :
    (iblk0 V c 5 t : Vec Ideal S512x256 .f32) (ix2 k j) = (V c main_arg5 : S512x256.Idx → EReal) (ix2 k j) := by
  obtain ⟨-, -, -, ⟨e0, e1⟩, -⟩ := fixed_index t
  unfold iblk0
  rw [View.read_apply]
  show V c main_arg5 _ = V c main_arg5 _
  congr 1
  funext a
  apply Fin.ext
  match a with
  | ⟨0, _⟩ => show win0_5.index t (0 : Fin 2) * 512 + 1 * k.val = k.val; rw [e0]; omega
  | ⟨1, _⟩ => show win0_5.index t (1 : Fin 2) * 256 + 1 * j.val = j.val; rw [e1]; omega

/-- The block of the second layer's bias row is the whole array, at every point. -/
theorem ba_block_apply (c : Dev nD) (t : Fin cfg0.N) (k : Fin 1) (j : Fin 256) :
    (iblk0 V c 6 t : Vec Ideal S1x256 .f32) (ix2 k j) = (V c main_v24 : S1x256.Idx → EReal) (ix2 k j) := by
  obtain ⟨-, -, -, -, ⟨e0, e1⟩, -⟩ := fixed_index t
  unfold iblk0
  rw [View.read_apply]
  show V c main_v24 _ = V c main_v24 _
  congr 1
  funext a
  apply Fin.ext
  match a with
  | ⟨0, _⟩ => show win0_6.index t (0 : Fin 2) * 1 + 1 * k.val = k.val; rw [e0]; omega
  | ⟨1, _⟩ => show win0_6.index t (1 : Fin 2) * 256 + 1 * j.val = j.val; rw [e1]; omega

/-- The block of the third layer's weights is the whole array, at every point. -/
theorem w1_block_apply (c : Dev nD) (t : Fin cfg0.N) (k : Fin 256) (j : Fin 128) :
    (iblk0 V c 7 t : Vec Ideal S256x128 .f32) (ix2 k j) = (V c main_arg7 : S256x128.Idx → EReal) (ix2 k j) := by
  obtain ⟨-, -, -, -, -, ⟨e0, e1⟩, -⟩ := fixed_index t
  unfold iblk0
  rw [View.read_apply]
  show V c main_arg7 _ = V c main_arg7 _
  congr 1
  funext a
  apply Fin.ext
  match a with
  | ⟨0, _⟩ => show win0_7.index t (0 : Fin 2) * 256 + 1 * k.val = k.val; rw [e0]; omega
  | ⟨1, _⟩ => show win0_7.index t (1 : Fin 2) * 128 + 1 * j.val = j.val; rw [e1]; omega

/-- The block of the third layer's bias row is the whole array, at every point. -/
theorem b1_block_apply (c : Dev nD) (t : Fin cfg0.N) (k : Fin 1) (j : Fin 128) :
    (iblk0 V c 8 t : Vec Ideal S1x128 .f32) (ix2 k j) = (V c main_v25 : S1x128.Idx → EReal) (ix2 k j) := by
  obtain ⟨-, -, -, -, -, -, ⟨e0, e1⟩, -⟩ := fixed_index t
  unfold iblk0
  rw [View.read_apply]
  show V c main_v25 _ = V c main_v25 _
  congr 1
  funext a
  apply Fin.ext
  match a with
  | ⟨0, _⟩ => show win0_8.index t (0 : Fin 2) * 1 + 1 * k.val = k.val; rw [e0]; omega
  | ⟨1, _⟩ => show win0_8.index t (1 : Fin 2) * 128 + 1 * j.val = j.val; rw [e1]; omega

/-- The block of the fourth layer's weights is the whole array, at every point. -/
theorem w2_block_apply (c : Dev nD) (t : Fin cfg0.N) (k : Fin 128) (j : Fin 64) :
    (iblk0 V c 9 t : Vec Ideal S128x64 .f32) (ix2 k j) = (V c main_arg9 : S128x64.Idx → EReal) (ix2 k j) := by
  obtain ⟨-, -, -, -, -, -, -, ⟨e0, e1⟩, -⟩ := fixed_index t
  unfold iblk0
  rw [View.read_apply]
  show V c main_arg9 _ = V c main_arg9 _
  congr 1
  funext a
  apply Fin.ext
  match a with
  | ⟨0, _⟩ => show win0_9.index t (0 : Fin 2) * 128 + 1 * k.val = k.val; rw [e0]; omega
  | ⟨1, _⟩ => show win0_9.index t (1 : Fin 2) * 64 + 1 * j.val = j.val; rw [e1]; omega

/-- The block of the fourth layer's bias row is the whole array, at every point. -/
theorem b2_block_apply (c : Dev nD) (t : Fin cfg0.N) (k : Fin 1) (j : Fin 64) :
    (iblk0 V c 10 t : Vec Ideal S1x64 .f32) (ix2 k j) = (V c main_v26 : S1x64.Idx → EReal) (ix2 k j) := by
  obtain ⟨-, -, -, -, -, -, -, -, ⟨e0, e1⟩, -⟩ := fixed_index t
  unfold iblk0
  rw [View.read_apply]
  show V c main_v26 _ = V c main_v26 _
  congr 1
  funext a
  apply Fin.ext
  match a with
  | ⟨0, _⟩ => show win0_10.index t (0 : Fin 2) * 1 + 1 * k.val = k.val; rw [e0]; omega
  | ⟨1, _⟩ => show win0_10.index t (1 : Fin 2) * 64 + 1 * j.val = j.val; rw [e1]; omega

/-- The block of the last layer's weights is the whole array, at every point. -/
theorem w3_block_apply (c : Dev nD) (t : Fin cfg0.N) (k : Fin 64) (j : Fin 3) :
    (iblk0 V c 11 t : Vec Ideal S64x3 .f32) (ix2 k j) = (V c main_arg11 : S64x3.Idx → EReal) (ix2 k j) := by
  obtain ⟨-, -, -, -, -, -, -, -, -, ⟨e0, e1⟩, -⟩ := fixed_index t
  unfold iblk0
  rw [View.read_apply]
  show V c main_arg11 _ = V c main_arg11 _
  congr 1
  funext a
  apply Fin.ext
  match a with
  | ⟨0, _⟩ => show win0_11.index t (0 : Fin 2) * 64 + 1 * k.val = k.val; rw [e0]; omega
  | ⟨1, _⟩ => show win0_11.index t (1 : Fin 2) * 3 + 1 * j.val = j.val; rw [e1]; omega

/-- The block of the last layer's bias row is the whole array, at every point. -/
theorem b3_block_apply (c : Dev nD) (t : Fin cfg0.N) (k : Fin 1) (j : Fin 3) :
    (iblk0 V c 12 t : Vec Ideal S1x3 .f32) (ix2 k j) = (V c main_v27 : S1x3.Idx → EReal) (ix2 k j) := by
  obtain ⟨-, -, -, -, -, -, -, -, -, -, ⟨e0, e1⟩⟩ := fixed_index t
  unfold iblk0
  rw [View.read_apply]
  show V c main_v27 _ = V c main_v27 _
  congr 1
  funext a
  apply Fin.ext
  match a with
  | ⟨0, _⟩ => show win0_12.index t (0 : Fin 2) * 1 + 1 * k.val = k.val; rw [e0]; omega
  | ⟨1, _⟩ => show win0_12.index t (1 : Fin 2) * 3 + 1 * j.val = j.val; rw [e1]; omega

end Sage

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.SageSpec.lean ====
/-
  The embedding network as a function of one node's two feature rows.

  A node's embedding is computed from its own 512 features `x` and the mean `a` of its in-neighbours' features:
  first  h⁰_j = relu((Σ_k a_k·Wl_kj + bl_j) + Σ_k x_k·Wr_kj),  then three layers  h ↦ relu(Σ_k h_k·W_kj + b_j)
  of widths 256, 128, 64, and a last affine layer of width 3 with no relu. Sums and products are those of the
  extended reals; `relu t = max t 0`. Nothing here depends on how rows are tiled: row `r` of the result depends
  on row `r` of `a` and of `x` only.
-/
import Idealize.ShloMosaic.PureOps.Ideal
import Idealize.ShloMosaic.Lib.ValueIdx

noncomputable section

namespace Sage

open Idealize.ShloMosaic

/-- The f32 zero as an extended real (the word 0x00000000). -/
def zero : EReal := Ideal.ofBits .f32 0x00000000#32

/-- `max t 0`. -/
def relu (t : EReal) : EReal := max t zero

/-- One affine layer on a row: `Σ_k h_k·W_kj + b_j`. -/
def lin {K N : ℕ} (h : Fin K → EReal) (W : Fin K → Fin N → EReal) (b : Fin N → EReal) (j : Fin N) : EReal :=
  (∑ k : Fin K, h k * W k j) + b j

/-- The first hidden layer: the neighbour mean through `Wl` with its bias, plus the node's own features through `Wr`. -/
def hid0 (a x : Fin 512 → EReal) (Wl : Fin 512 → Fin 512 → EReal) (bl : Fin 512 → EReal) (Wr : Fin 512 → Fin 512 → EReal)
    (j : Fin 512) : EReal :=
  relu (((∑ k : Fin 512, a k * Wl k j) + bl j) + ∑ k : Fin 512, x k * Wr k j)

/-- One node's embedding from its two feature rows. -/
def row (a x : Fin 512 → EReal) (Wl : Fin 512 → Fin 512 → EReal) (bl : Fin 512 → EReal) (Wr : Fin 512 → Fin 512 → EReal)
    (Wa : Fin 512 → Fin 256 → EReal) (ba : Fin 256 → EReal) (W1 : Fin 256 → Fin 128 → EReal) (b1 : Fin 128 → EReal)
    (W2 : Fin 128 → Fin 64 → EReal) (b2 : Fin 64 → EReal) (W3 : Fin 64 → Fin 3 → EReal) (b3 : Fin 3 → EReal) : Fin 3 → EReal :=
  lin (fun j => relu (lin (fun j => relu (lin (fun j => relu (lin (hid0 a x Wl bl Wr) Wa ba j)) W1 b1 j)) W2 b2 j)) W3 b3

/-- All 8192 embeddings: row `r` is `row` of row `r` of the neighbour means and of the features. -/
def Y (agg x : Fin 8192 → Fin 512 → EReal) (Wl : Fin 512 → Fin 512 → EReal) (bl : Fin 512 → EReal) (Wr : Fin 512 → Fin 512 → EReal)
    (Wa : Fin 512 → Fin 256 → EReal) (ba : Fin 256 → EReal) (W1 : Fin 256 → Fin 128 → EReal) (b1 : Fin 128 → EReal)
    (W2 : Fin 128 → Fin 64 → EReal) (b2 : Fin 64 → EReal) (W3 : Fin 64 → Fin 3 → EReal) (b3 : Fin 3 → EReal) :
    Fin 8192 → Fin 3 → EReal :=
  fun r => row (agg r) (x r) Wl bl Wr Wa ba W1 b1 W2 b2 W3 b3

/-! ## The pairwise distances of the embeddings

  `‖y_i − y_j‖` computed as the root of `(‖y_i‖² + ‖y_j‖²) − 2·⟨y_i, y_j⟩` clamped at zero, and set to zero where the
  clamped value is not positive (the root is taken of 1 there, and discarded). -/

/-- The f32 words 1.0 and 2.0 as extended reals. -/
def one : EReal := Ideal.ofBits .f32 0x3F800000#32
def two : EReal := Ideal.ofBits .f32 0x40000000#32

/-- The squared norm of a 3-vector. -/
def sqn (y : Fin 3 → EReal) : EReal := ∑ k : Fin 3, y k * y k

/-- Clamp a squared distance at zero and take its root where positive, zero elsewhere. -/
def root (d : EReal) : EReal :=
  Scalar.select (Ideal.cmp .ogt (max d zero) zero)
    (Ideal.sqrt (Scalar.select (Ideal.cmp .ogt (max d zero) zero) (max d zero) one)) zero

/-- The distance matrix of 8192 points of the 3-space. -/
def D (y : Fin 8192 → Fin 3 → EReal) (i j : Fin 8192) : EReal :=
  root ((sqn (y i) + sqn (y j)) - two * ∑ k : Fin 3, y i k * y j k)

end Sage

end
-- ==== Proof.MlpLayer.lean ====
/-
  One affine layer of the embedding network, as the row-tiled body computes it, read at an entry.

  The body forms a layer's 1024 rows at once: a matrix-unit product of the rows' inputs A (M × K) with the weights
  W (K × N) accumulated into the zero splat, plus the bias b (one row of N) broadcast over the M rows, and — for the
  hidden layers — the pointwise maximum with the zero splat. Entry (p, j) of the result depends on row p of A only:
  it is  Σ_k A(p,k)·W(k,j) + b(0,j),  respectively its maximum with zero. Any extents M, K, N.
-/
import Idealize.ShloMosaic.Lib.ValueLayout
import proofs.«148003_j26620207301223_1_alg».proof.Proof.LibPlainProduct
import proofs.«148003_j26620207301223_1_alg».proof.Proof.SageSpec

noncomputable section

open scoped BigOperators

namespace Sage

open Idealize.ShloMosaic Idealize.ShloMosaic.ValueIdx Cert.LibPlainProduct

variable {M K N : Nat}

/-- The zero the body takes maxima with is the specification's zero. -/
theorem ofBits_zero : (Scalar.ofBits .f32 0x00000000#32 : Ideal .f32) = zero := rfl

/-- Entry (p, j) of product-plus-bias: Σ_k A(p,k)·W(k,j) + b(0,j). The dimension numbers `D` are any record equal to
    the plain M × K by K × N ones. -/
theorem affine_apply (D : DotDims ⟨2, ![M, K]⟩ ⟨2, ![K, N]⟩ ⟨2, ![M, N]⟩)
    (w : DotDims.WF ⟨2, ![M, K]⟩ ⟨2, ![K, N]⟩ ⟨2, ![M, N]⟩ [1] [0] [0] [1] [] []) (hD : D = plainDims w)
    (hc : (⟨2, ![1, N]⟩ : Shape).ShapeCasts ⟨2, ![1, N]⟩) (hb : (⟨2, ![1, N]⟩ : Shape).Broadcasts ⟨2, ![M, N]⟩)
    (A : FVec Ideal ⟨2, ![M, K]⟩ .f32) (W : FVec Ideal ⟨2, ![K, N]⟩ .f32) (b : FVec Ideal ⟨2, ![1, N]⟩ .f32)
    (p : Fin M) (j : Fin N) :
    addf (matmul D none A W (constant ⟨2, ![M, N]⟩ .f32 0x00000000#32))
        (broadcastTo ⟨2, ![M, N]⟩ (shapeCast ⟨2, ![1, N]⟩ b hc) hb) (ix2 p j)
      = lin (fun k => A (ix2 p k)) (fun k j => W (ix2 k j)) (fun j => b (ix2 0 j)) j := by
  subst hD
  rw [addf_apply, shapeCast_self, broadcastTo_1b_ab_apply]
  exact congrArg (· + b (ix2 0 j)) (matmul_zero_plain_apply w none A W p j)

/-- Entry (p, j) of a hidden layer: the maximum of product-plus-bias with zero. -/
theorem hidden_apply (D : DotDims ⟨2, ![M, K]⟩ ⟨2, ![K, N]⟩ ⟨2, ![M, N]⟩)
    (w : DotDims.WF ⟨2, ![M, K]⟩ ⟨2, ![K, N]⟩ ⟨2, ![M, N]⟩ [1] [0] [0] [1] [] []) (hD : D = plainDims w)
    (hc : (⟨2, ![1, N]⟩ : Shape).ShapeCasts ⟨2, ![1, N]⟩) (hb : (⟨2, ![1, N]⟩ : Shape).Broadcasts ⟨2, ![M, N]⟩)
    (A : FVec Ideal ⟨2, ![M, K]⟩ .f32) (W : FVec Ideal ⟨2, ![K, N]⟩ .f32) (b : FVec Ideal ⟨2, ![1, N]⟩ .f32)
    (p : Fin M) (j : Fin N) :
    maximumf (addf (matmul D none A W (constant ⟨2, ![M, N]⟩ .f32 0x00000000#32))
        (broadcastTo ⟨2, ![M, N]⟩ (shapeCast ⟨2, ![1, N]⟩ b hc) hb))
        (broadcast ⟨2, ![M, N]⟩ (Scalar.ofBits .f32 0x00000000#32 : Ideal .f32)) (ix2 p j)
      = relu (lin (fun k => A (ix2 p k)) (fun k j => W (ix2 k j)) (fun j => b (ix2 0 j)) j) := by
  rw [maximumf_apply, broadcast_apply, affine_apply D w hD hc hb A W b p j]
  rfl

/-- Entry (p, j) of the first hidden layer: the neighbour means A through Wl with the bias, plus the own features X
    through Wr, then the maximum with zero. (The body casts A to its own shape first: the identity.) -/
theorem first_apply (D : DotDims ⟨2, ![M, K]⟩ ⟨2, ![K, N]⟩ ⟨2, ![M, N]⟩)
    (w : DotDims.WF ⟨2, ![M, K]⟩ ⟨2, ![K, N]⟩ ⟨2, ![M, N]⟩ [1] [0] [0] [1] [] []) (hD : D = plainDims w)
    (hs : (⟨2, ![M, K]⟩ : Shape).ShapeCasts ⟨2, ![M, K]⟩)
    (hc : (⟨2, ![1, N]⟩ : Shape).ShapeCasts ⟨2, ![1, N]⟩) (hb : (⟨2, ![1, N]⟩ : Shape).Broadcasts ⟨2, ![M, N]⟩)
    (A X : FVec Ideal ⟨2, ![M, K]⟩ .f32) (Wl Wr : FVec Ideal ⟨2, ![K, N]⟩ .f32) (b : FVec Ideal ⟨2, ![1, N]⟩ .f32)
    (p : Fin M) (j : Fin N) :
    maximumf (addf (addf (matmul D none (shapeCast ⟨2, ![M, K]⟩ A hs) Wl (constant ⟨2, ![M, N]⟩ .f32 0x00000000#32))
          (broadcastTo ⟨2, ![M, N]⟩ (shapeCast ⟨2, ![1, N]⟩ b hc) hb))
        (matmul D none X Wr (constant ⟨2, ![M, N]⟩ .f32 0x00000000#32)))
        (broadcast ⟨2, ![M, N]⟩ (Scalar.ofBits .f32 0x00000000#32 : Ideal .f32)) (ix2 p j)
      = relu (((∑ k : Fin K, A (ix2 p k) * Wl (ix2 k j)) + b (ix2 0 j)) + ∑ k : Fin K, X (ix2 p k) * Wr (ix2 k j)) := by
  rw [maximumf_apply, broadcast_apply, addf_apply, shapeCast_self A hs, affine_apply D w hD hc hb A Wl b p j]
  subst hD
  exact congrArg (fun t => max ((lin (fun k => A (ix2 p k)) (fun k j => Wl (ix2 k j)) (fun j => b (ix2 0 j)) j) + t) zero)
    (matmul_zero_plain_apply w none X Wr p j)

end Sage

end
-- ==== Proof.MlpPayload.lean ====
/-
  The body of the row-tiled network at an entry.

  The value the body stores at entry (p, j) of its 1024 × 3 block is the specification's `Sage.row` of row p of the two
  loaded feature blocks (neighbour means, own features) and of the loaded weights and biases: the body is the five layers
  of `MlpLayer` one after another, and an entry of each layer depends on row p of the layer before only.
-/
import proofs.«148003_j26620207301223_1_alg».proof.Proof.Gen.KernelIdeal.Skeleton
import proofs.«148003_j26620207301223_1_alg».proof.Proof.MlpLayer

set_option maxRecDepth 16384

noncomputable section

open scoped BigOperators

namespace Sage

open Idealize.ShloMosaic Idealize.ShloMosaic.ValueIdx Cert.LibPlainProduct
open Cert.KernelIdeal Cert.KernelIdeal.Gen

/-- The third hidden layer's 1024 × 128 block at entry (p, j): three hidden layers over the first. -/
theorem pay2_apply (v0 v2 : FVec Ideal S1024x512 .f32) (v3 : FVec Ideal S512x512 .f32) (v5 : FVec Ideal S1x512 .f32)
    (v9 : FVec Ideal S512x512 .f32) (v14 : FVec Ideal S512x256 .f32) (v16 : FVec Ideal S1x256 .f32)
    (v22 : FVec Ideal S256x128 .f32) (v24 : FVec Ideal S1x128 .f32) (p : Fin 1024) (j : Fin 128) :
    k0_pay2 (F := Ideal) v0 v2 v3 v5 v9 v14 v16 v22 v24 (ix2 p j)
      = relu (lin (fun j => relu (lin (hid0 (fun k => v0 (ix2 p k)) (fun k => v2 (ix2 p k)) (fun k j => v3 (ix2 k j))
            (fun j => v5 (ix2 0 j)) (fun k j => v9 (ix2 k j))) (fun k j => v14 (ix2 k j)) (fun j => v16 (ix2 0 j)) j))
          (fun k j => v22 (ix2 k j)) (fun j => v24 (ix2 0 j)) j) := by
  unfold k0_pay2
  refine (hidden_apply (M := 1024) (K := 256) (N := 128) dot_S1024x256_S256x128_S1024x128_1_0_0_1_n_n
    dot_S1024x256_S256x128_S1024x128_1_0_0_1_n_n_wf rfl _ _ _ v22 v24 p j).trans ?_
  refine congrArg (fun h => relu (lin h (fun k j => v22 (ix2 k j)) (fun j => v24 (ix2 0 j)) j)) (funext fun k => ?_)
  refine (hidden_apply (M := 1024) (K := 512) (N := 256) dot_S1024x512_S512x256_S1024x256_1_0_0_1_n_n
    dot_S1024x512_S512x256_S1024x256_1_0_0_1_n_n_wf rfl _ _ _ v14 v16 p k).trans ?_
  refine congrArg (fun h => relu (lin h (fun k j => v14 (ix2 k j)) (fun j => v16 (ix2 0 j)) k)) (funext fun i => ?_)
  exact first_apply (M := 1024) (K := 512) (N := 512) dot_S1024x512_S512x512_S1024x512_1_0_0_1_n_n
    dot_S1024x512_S512x512_S1024x512_1_0_0_1_n_n_wf rfl _ _ _ v0 v2 v3 v9 v5 p i

/-- The stored 1024 × 3 block at entry (p, j): the specification's row function of row p of the feature blocks. -/
theorem pay1_apply (v0 v2 : FVec Ideal S1024x512 .f32) (v3 : FVec Ideal S512x512 .f32) (v5 : FVec Ideal S1x512 .f32)
    (v9 : FVec Ideal S512x512 .f32) (v14 : FVec Ideal S512x256 .f32) (v16 : FVec Ideal S1x256 .f32)
    (v22 : FVec Ideal S256x128 .f32) (v24 : FVec Ideal S1x128 .f32) (v30 : FVec Ideal S128x64 .f32)
    (v32 : FVec Ideal S1x64 .f32) (v38 : FVec Ideal S64x3 .f32) (v40 : FVec Ideal S1x3 .f32) (p : Fin 1024) (j : Fin 3) :
    k0_pay1 (F := Ideal) (k0_pay2 v0 v2 v3 v5 v9 v14 v16 v22 v24) v30 (constant S1024x64 .f32 0x00000000#32) v32 v38 v40 (ix2 p j)
      = row (fun k => v0 (ix2 p k)) (fun k => v2 (ix2 p k)) (fun k j => v3 (ix2 k j)) (fun j => v5 (ix2 0 j))
          (fun k j => v9 (ix2 k j)) (fun k j => v14 (ix2 k j)) (fun j => v16 (ix2 0 j)) (fun k j => v22 (ix2 k j))
          (fun j => v24 (ix2 0 j)) (fun k j => v30 (ix2 k j)) (fun j => v32 (ix2 0 j)) (fun k j => v38 (ix2 k j))
          (fun j => v40 (ix2 0 j)) j := by
  unfold k0_pay1
  refine (affine_apply (M := 1024) (K := 64) (N := 3) dot_S1024x64_S64x3_S1024x3_1_0_0_1_n_n
    dot_S1024x64_S64x3_S1024x3_1_0_0_1_n_n_wf rfl _ _ _ v38 v40 p j).trans ?_
  refine congrArg (fun h => lin h (fun k j => v38 (ix2 k j)) (fun j => v40 (ix2 0 j)) j) (funext fun k => ?_)
  refine (hidden_apply (M := 1024) (K := 128) (N := 64) dot_S1024x128_S128x64_S1024x64_1_0_0_1_n_n
    dot_S1024x128_S128x64_S1024x64_1_0_0_1_n_n_wf rfl _ _ _ v30 v32 p k).trans ?_
  refine congrArg (fun h => relu (lin h (fun k j => v30 (ix2 k j)) (fun j => v32 (ix2 0 j)) k)) (funext fun i => ?_)
  exact pay2_apply v0 v2 v3 v5 v9 v14 v16 v22 v24 p i

end Sage

end
-- ==== Proof.MlpKernel.lean ====
/-
  The array of embeddings the row-tiled network leaves.

  Point t of the 8-point grid writes back the 1024 × 3 block of rows 1024·t … 1024·t + 1023. Its entry (p, j) is the
  specification's row function of row p of the two loaded feature blocks, that is of row 1024·t + p of the two feature
  arrays, and of the whole weight and bias arrays: the block is the block of ONE function of the arrays, `embed`, whose
  row r is `Sage.row` of row r of the features. Row r lies in the block of point r / 1024, so the blocks cover the array
  and the array ends holding `embed`: entry (r, j) is `Sage.Y … r j`.
-/
import proofs.«148003_j26620207301223_1_alg».proof.Proof.MlpBlocks
import proofs.«148003_j26620207301223_1_alg».proof.Proof.MlpPayload
import Idealize.ShloMosaic.Lib.Pipeline.Value

set_option maxRecDepth 16384

noncomputable section

namespace Sage

open Idealize.ShloMosaic Idealize.ShloMosaic.TcCoe Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The body's rectangles all start at the origin. -/
theorem origin : (![0, 0] : Fin 2 → Nat) = fun _ => 0 := funext fun a => by fin_cases a <;> rfl

/-- The whole array of embeddings as one function of the thirteen arrays the region finds: entry (r, j) is the
    specification's `Y` at (r, j). -/
def embed (c : Dev nD) : S8192x3.Idx → EReal := fun i =>
  Y (fun r k => (V c main_v22 : S8192x512.Idx → EReal) (ix2 r k))
    (fun r k => (V c main_arg0 : S8192x512.Idx → EReal) (ix2 r k))
    (fun k j => (V c main_arg2 : S512x512.Idx → EReal) (ix2 k j))
    (fun j => (V c main_v23 : S1x512.Idx → EReal) (ix2 0 j))
    (fun k j => (V c main_arg4 : S512x512.Idx → EReal) (ix2 k j))
    (fun k j => (V c main_arg5 : S512x256.Idx → EReal) (ix2 k j))
    (fun j => (V c main_v24 : S1x256.Idx → EReal) (ix2 0 j))
    (fun k j => (V c main_arg7 : S256x128.Idx → EReal) (ix2 k j))
    (fun j => (V c main_v25 : S1x128.Idx → EReal) (ix2 0 j))
    (fun k j => (V c main_arg9 : S128x64.Idx → EReal) (ix2 k j))
    (fun j => (V c main_v26 : S1x64.Idx → EReal) (ix2 0 j))
    (fun k j => (V c main_arg11 : S64x3.Idx → EReal) (ix2 k j))
    (fun j => (V c main_v27 : S1x3.Idx → EReal) (ix2 0 j))
    ⟨(i 0).val, idx2_lt0 i⟩ ⟨(i 1).val, idx2_lt1 i⟩

/-- Entry (r, j) of `embed`: the row function of row r of the two feature arrays. -/
theorem embed_apply (c : Dev nD) (r : Fin 8192) (j : Fin 3) :
    embed V c (ix2 r j)
      = row (fun k => (V c main_v22 : S8192x512.Idx → EReal) (ix2 r k)) (fun k => (V c main_arg0 : S8192x512.Idx → EReal) (ix2 r k))
          (fun k j => (V c main_arg2 : S512x512.Idx → EReal) (ix2 k j))
          (fun j => (V c main_v23 : S1x512.Idx → EReal) (ix2 0 j))
          (fun k j => (V c main_arg4 : S512x512.Idx → EReal) (ix2 k j))
          (fun k j => (V c main_arg5 : S512x256.Idx → EReal) (ix2 k j))
          (fun j => (V c main_v24 : S1x256.Idx → EReal) (ix2 0 j))
          (fun k j => (V c main_arg7 : S256x128.Idx → EReal) (ix2 k j))
          (fun j => (V c main_v25 : S1x128.Idx → EReal) (ix2 0 j))
          (fun k j => (V c main_arg9 : S128x64.Idx → EReal) (ix2 k j))
          (fun j => (V c main_v26 : S1x64.Idx → EReal) (ix2 0 j))
          (fun k j => (V c main_arg11 : S64x3.Idx → EReal) (ix2 k j))
          (fun j => (V c main_v27 : S1x3.Idx → EReal) (ix2 0 j)) j := rfl

/-- The row function respects equality of its thirteen arguments. -/
theorem row_congr {a a' x x' : Fin 512 → EReal} {Wl Wl' : Fin 512 → Fin 512 → EReal} {bl bl' : Fin 512 → EReal}
    {Wr Wr' : Fin 512 → Fin 512 → EReal} {Wa Wa' : Fin 512 → Fin 256 → EReal} {ba ba' : Fin 256 → EReal}
    {W1 W1' : Fin 256 → Fin 128 → EReal} {b1 b1' : Fin 128 → EReal} {W2 W2' : Fin 128 → Fin 64 → EReal}
    {b2 b2' : Fin 64 → EReal} {W3 W3' : Fin 64 → Fin 3 → EReal} {b3 b3' : Fin 3 → EReal}
    (h0 : a = a') (h1 : x = x') (h2 : Wl = Wl') (h3 : bl = bl') (h4 : Wr = Wr') (h5 : Wa = Wa') (h6 : ba = ba')
    (h7 : W1 = W1') (h8 : b1 = b1') (h9 : W2 = W2') (h10 : b2 = b2') (h11 : W3 = W3') (h12 : b3 = b3') (j : Fin 3) :
    row a x Wl bl Wr Wa ba W1 b1 W2 b2 W3 b3 j = row a' x' Wl' bl' Wr' Wa' ba' W1' b1' W2' b2' W3' b3' j := by
  subst h0 h1 h2 h3 h4 h5 h6 h7 h8 h9 h10 h11 h12; rfl

/-- Entry (p, j) of the block the body stores, over any thirteen loaded blocks: the row function of row p of the two
    feature blocks. -/
theorem stored_apply (x0 x1 : Vec Ideal S1024x512 .f32) (x2 : Vec Ideal S512x512 .f32) (x3 : Vec Ideal S1x512 .f32)
    (x4 : Vec Ideal S512x512 .f32) (x5 : Vec Ideal S512x256 .f32) (x6 : Vec Ideal S1x256 .f32) (x7 : Vec Ideal S256x128 .f32)
    (x8 : Vec Ideal S1x128 .f32) (x9 : Vec Ideal S128x64 .f32) (x10 : Vec Ideal S1x64 .f32) (x11 : Vec Ideal S64x3 .f32)
    (x12 : Vec Ideal S1x3 .f32) (p : Fin 1024) (j : Fin 3) :
    out0_13 (F := Ideal) x0 x1 x2 x3 x4 x5 x6 x7 x8 x9 x10 x11 x12 (ix2 p j)
      = row (fun k => x0 (ix2 p k)) (fun k => x1 (ix2 p k)) (fun k j => x2 (ix2 k j)) (fun j => x3 (ix2 0 j))
          (fun k j => x4 (ix2 k j)) (fun k j => x5 (ix2 k j)) (fun j => x6 (ix2 0 j)) (fun k j => x7 (ix2 k j))
          (fun j => x8 (ix2 0 j)) (fun k j => x9 (ix2 k j)) (fun j => x10 (ix2 0 j)) (fun k j => x11 (ix2 k j))
          (fun j => x12 (ix2 0 j)) j := by
  unfold out0_13
  rw [View.canon_unit_zero origin]
  simp only [View.ld_unit_zero (S := S1024x512) origin, View.ld_unit_zero (S := S512x512) origin, View.ld_unit_zero (S := S1x512) origin, View.ld_unit_zero (S := S512x256) origin, View.ld_unit_zero (S := S1x256) origin, View.ld_unit_zero (S := S256x128) origin, View.ld_unit_zero (S := S1x128) origin, View.ld_unit_zero (S := S128x64) origin, View.ld_unit_zero (S := S1x64) origin, View.ld_unit_zero (S := S64x3) origin, View.ld_unit_zero (S := S1x3) origin]
  exact pay1_apply x0 x1 x2 x3 x4 x5 x6 x7 x8 x9 x10 x11 x12 p j

/-- What point t writes back is block t of `embed`. -/
theorem flushed_eq (c : Dev nD) (t : Fin cfg0.N) :
    (dat0 V c).flushed 13 t = ((cfg0.win 13).blk t).view.read (Elt Ideal) (embed V c) := by
  show (cfg0.win 13).cut (grid0.coords t) ((dat0 V c).after 13 t) = _
  rw [after0_13]
  funext y
  obtain ⟨p, j, rfl⟩ : ∃ (p : Fin 1024) (j : Fin 3), y = ix2 p j := ⟨y 0, y 1, eq_ix2 y⟩
  obtain ⟨-, -, -, -, e0, e1⟩ := moving_index t
  have ht : t.val < 8 := lt_of_lt_of_eq t.isLt N_0
  have hlt : 1024 * t.val + p.val < 8192 := by have := p.isLt; omega
  -- the block's entry (p, j) sits at entry (1024·t + p, j) of the array
  have hemb : ((cfg0.win 13).blk t).view.emb (ix2 p j) = ix2 (⟨1024 * t.val + p.val, hlt⟩ : Fin 8192) j := by
    funext a
    apply Fin.ext
    match a with
    | ⟨0, _⟩ => show win0_13.index t (0 : Fin 2) * 1024 + 1 * p.val = 1024 * t.val + p.val; rw [e0]; omega
    | ⟨1, _⟩ => show win0_13.index t (1 : Fin 2) * 3 + 1 * j.val = j.val; rw [e1]; omega
  refine (stored_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) p j).trans ?_
  rw [View.read_apply]
  show _ = embed V c (((cfg0.win 13).blk t).view.emb (ix2 p j))
  rw [hemb, embed_apply]
  exact row_congr
    (funext fun k => means_block_apply V c t p k ⟨1024 * t.val + p.val, hlt⟩ rfl)
    (funext fun k => feats_block_apply V c t p k ⟨1024 * t.val + p.val, hlt⟩ rfl)
    (funext fun k => funext fun i => wl_block_apply V c t k i)
    (funext fun i => bl_block_apply V c t 0 i)
    (funext fun k => funext fun i => wr_block_apply V c t k i)
    (funext fun k => funext fun i => wa_block_apply V c t k i)
    (funext fun i => ba_block_apply V c t 0 i)
    (funext fun k => funext fun i => w1_block_apply V c t k i)
    (funext fun i => b1_block_apply V c t 0 i)
    (funext fun k => funext fun i => w2_block_apply V c t k i)
    (funext fun i => b2_block_apply V c t 0 i)
    (funext fun k => funext fun i => w3_block_apply V c t k i)
    (funext fun i => b3_block_apply V c t 0 i) j

/-- An index of the array is in point t's block iff each coordinate is in the block's range on its axis. -/
theorem mem_block (t : Fin cfg0.N) (i : S8192x3.Idx) :
    i ∈ ((cfg0.win 13).blk t).view.set ↔ ∀ a : Fin 2, win0_13.index t a * S1024x3.size a ≤ (i a).val
      ∧ (i a).val < win0_13.index t a * S1024x3.size a + S1024x3.size a := by
  show i ∈ ((View.whole main_v28).slice (win0_13.rect t)).set ↔ _
  rw [View.set_slice_whole, Rect.mem_set_unit]
  exact Iff.rfl

/-- Every entry of the array is in some point's block: row r in the block of point r / 1024. -/
theorem covered (i : S8192x3.Idx) :
    ∃ t : Fin cfg0.N, (cfg0.win 13).flush t = true ∧ i ∈ ((cfg0.win 13).blk t).view.set := by
  have hi0 : (i 0).val < 8192 := (i 0).isLt
  have hi1 : (i 1).val < 3 := (i 1).isLt
  have hN : (i 0).val / 1024 < cfg0.N := lt_of_lt_of_eq (by omega : (i 0).val / 1024 < 8) N_0.symm
  obtain ⟨-, -, -, -, e0, e1⟩ := moving_index ⟨(i 0).val / 1024, hN⟩
  refine ⟨⟨(i 0).val / 1024, hN⟩, flush0_13 _, ?_⟩
  rw [mem_block]
  intro a
  match a with
  | ⟨0, _⟩ =>
    show win0_13.index ⟨(i 0).val / 1024, hN⟩ (0 : Fin 2) * 1024 ≤ (i 0).val
      ∧ (i 0).val < win0_13.index ⟨(i 0).val / 1024, hN⟩ (0 : Fin 2) * 1024 + 1024
    rw [e0]; show (i 0).val / 1024 * 1024 ≤ (i 0).val ∧ (i 0).val < (i 0).val / 1024 * 1024 + 1024; omega
  | ⟨1, _⟩ =>
    show win0_13.index ⟨(i 0).val / 1024, hN⟩ (1 : Fin 2) * 3 ≤ (i 1).val
      ∧ (i 1).val < win0_13.index ⟨(i 0).val / 1024, hN⟩ (1 : Fin 2) * 3 + 3
    rw [e1]; omega

/-- The array of embeddings after the region is `embed` of the arrays the region found. -/
theorem embed_final (c : Dev nD) : (dat0 V c).arrAt 13 cfg0.N = embed V c :=
  (dat0 V c).arrAt_eq_of_cover 13 (embed V c) (fun t _ => flushed_eq V c t) (covered)

/-- Entry (r, j) of the array of embeddings after the region: the specification's `Y` of the thirteen arrays. -/
theorem kernel_y (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (r : Fin 8192) (j : Fin 3) :
    ((Cert.KernelIdeal.Hand.dat0 (F := Ideal) V c).arrAt 13 Cert.KernelIdeal.cfg0.N : S8192x3.Idx → EReal) (ix2 r j)
      = Sage.Y (fun r k => (V c main_v22 : S8192x512.Idx → EReal) (ix2 r k))
          (fun r k => (V c main_arg0 : S8192x512.Idx → EReal) (ix2 r k))
          (fun k j => (V c main_arg2 : S512x512.Idx → EReal) (ix2 k j))
          (fun j => (V c main_v23 : S1x512.Idx → EReal) (ix2 0 j))
          (fun k j => (V c main_arg4 : S512x512.Idx → EReal) (ix2 k j))
          (fun k j => (V c main_arg5 : S512x256.Idx → EReal) (ix2 k j))
          (fun j => (V c main_v24 : S1x256.Idx → EReal) (ix2 0 j))
          (fun k j => (V c main_arg7 : S256x128.Idx → EReal) (ix2 k j))
          (fun j => (V c main_v25 : S1x128.Idx → EReal) (ix2 0 j))
          (fun k j => (V c main_arg9 : S128x64.Idx → EReal) (ix2 k j))
          (fun j => (V c main_v26 : S1x64.Idx → EReal) (ix2 0 j))
          (fun k j => (V c main_arg11 : S64x3.Idx → EReal) (ix2 k j))
          (fun j => (V c main_v27 : S1x3.Idx → EReal) (ix2 0 j)) r j :=
  congrFun (embed_final V c) (ix2 r j)

end Sage

end
-- ==== Proof.LibRowCast.lean ====
/-
  A vector of length n and the row [1, n] that holds the same elements: a shape cast between the two keeps every
  element's row-major position, which is j for the vector's element j and 0 · n + j for the row's element (0, j).
  So the cast to a row reads the vector at the column coordinate, and the cast back reads the row at (0, j).
-/
import Idealize.ShloMosaic.Lib.ValueIdx
import Idealize.ShloMosaic.Lib.Pipeline.Value
import Idealize.ShloMosaic.Lib.ValueLayout

namespace Idealize.ShloMosaic.RowCast

open Idealize.ShloMosaic Idealize.ShloMosaic.ValueIdx

/-- A vector of length n cast to a row [1, n] reads, at (u, j), the vector at j, whatever the unit coordinate u:
    the row-major positions are u · n + j with u = 0, and j. -/
theorem shapeCast_row_apply {α : Type} {n : ℕ} (x : (⟨1, ![n]⟩ : Shape).Idx → α)
    (h : (⟨1, ![n]⟩ : Shape).ShapeCasts (⟨2, ![1, n]⟩ : Shape)) (u : Fin 1) (j : Fin n) :
    shapeCast (⟨2, ![1, n]⟩ : Shape) x h (ix2 u j) = x (ix1 j) :=
  shapeCast_apply x h _ _ (by
    have hu : u.val = 0 := by omega
    rw [Shape.rowMajor_val_two, Shape.rowMajor_val_one]
    show j.val = u.val * n + j.val
    rw [hu, Nat.zero_mul, Nat.zero_add])

/-- A row [1, n] cast to a vector of length n reads, at j, the row at (0, j): the row-major positions are
    0 · n + j and j. -/
theorem shapeCast_unrow_apply {α : Type} {n : ℕ} (x : (⟨2, ![1, n]⟩ : Shape).Idx → α)
    (h : (⟨2, ![1, n]⟩ : Shape).ShapeCasts (⟨1, ![n]⟩ : Shape)) (j : Fin n) :
    shapeCast (⟨1, ![n]⟩ : Shape) x h (ix1 j) = x (ix2 (0 : Fin 1) j) :=
  shapeCast_apply x h _ _ (by
    rw [Shape.rowMajor_val_two, Shape.rowMajor_val_one]
    show (0 : ℕ) * n + j.val = j.val
    rw [Nat.zero_mul, Nat.zero_add])

end Idealize.ShloMosaic.RowCast
-- ==== Proof.KIHost.lean ====
/-
  What the host operations ahead of the first region leave in the buffers that region reads.

  The program begins with the operations the reference begins with: the two endpoint rows of the edge list are
  sliced off, negative source indices are wrapped, the source rows of the features are gathered and summed per
  destination, and the sums are divided by the in-degree clamped below at one. So the neighbour-mean buffer holds
  the reference's neighbour-mean stage of the two argument arrays, and that stage is never opened: the equation is
  between two spellings of one composed term. The five bias vectors are re-laid as rows [1, n]; entry (0, j) of such
  a row is entry j of the vector. The arguments themselves are as the launch found them.
-/
import proofs.«148003_j26620207301223_1_alg».proof.Proof.Gen.KernelIdeal.Regions
import proofs.«148003_j26620207301223_1_alg».proof.Proof.Gen.ReferenceIdeal.Read
import proofs.«148003_j26620207301223_1_alg».proof.Proof.LibRowCast

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen

/-- The neighbour-mean buffer after the host operations is the reference's neighbour-mean stage of the feature
    array and the edge list: reading the operations off in order gives, operation for operation, the term that
    stage is defined as (slice, wrap, gather, two per-destination sums, clamp, quotient). -/
theorem host_agg (m : (ℓ : Loc nD τ sig) → Buf (Elt Ideal) ℓ) (c : Dev nD) :
    (Gen.V1 (F := Ideal) m c main_v22 : S8192x512.Idx → EReal)
      = Cert.ReferenceIdeal.Read.val_main_v22 (F := Ideal) (m ((c : Thread nD τ).loc main_arg0)) (m ((c : Thread nD τ).loc main_arg1)) := by
  show StableHlo.after hostOps0 (fun b => m (c, b)) (Proc.devRef .tc main_v22) = _
  after_results_simp
  rfl

/-- The first layer's bias as a row: entry (0, j) is b_l(j). -/
theorem host_bl (m : (ℓ : Loc nD τ sig) → Buf (Elt Ideal) ℓ) (c : Dev nD) (j : Fin 512) :
    (Gen.V1 (F := Ideal) m c main_v23 : S1x512.Idx → EReal) (ix2 0 j)
      = (m ((c : Thread nD τ).loc main_arg3) : S512.Idx → EReal) (ix1 j) := by
  have e : (Gen.V1 (F := Ideal) m c main_v23 : S1x512.Idx → EReal)
      = shapeCast S1x512 (m ((c : Thread nD τ).loc main_arg3) : S512.Idx → EReal) shapeCasts_S512_S1x512 := by
    show StableHlo.after hostOps0 (fun b => m (c, b)) (Proc.devRef .tc main_v23) = _
    after_results_simp
    rfl
  rw [e]
  exact RowCast.shapeCast_row_apply _ _ 0 j

/-- The second layer's bias as a row: entry (0, j) is ba(j). -/
theorem host_ba (m : (ℓ : Loc nD τ sig) → Buf (Elt Ideal) ℓ) (c : Dev nD) (j : Fin 256) :
    (Gen.V1 (F := Ideal) m c main_v24 : S1x256.Idx → EReal) (ix2 0 j)
      = (m ((c : Thread nD τ).loc main_arg6) : S256.Idx → EReal) (ix1 j) := by
  have e : (Gen.V1 (F := Ideal) m c main_v24 : S1x256.Idx → EReal)
      = shapeCast S1x256 (m ((c : Thread nD τ).loc main_arg6) : S256.Idx → EReal) shapeCasts_S256_S1x256 := by
    show StableHlo.after hostOps0 (fun b => m (c, b)) (Proc.devRef .tc main_v24) = _
    after_results_simp
    rfl
  rw [e]
  exact RowCast.shapeCast_row_apply _ _ 0 j

/-- The third layer's bias as a row: entry (0, j) is b1(j). -/
theorem host_b1 (m : (ℓ : Loc nD τ sig) → Buf (Elt Ideal) ℓ) (c : Dev nD) (j : Fin 128) :
    (Gen.V1 (F := Ideal) m c main_v25 : S1x128.Idx → EReal) (ix2 0 j)
      = (m ((c : Thread nD τ).loc main_arg8) : S128.Idx → EReal) (ix1 j) := by
  have e : (Gen.V1 (F := Ideal) m c main_v25 : S1x128.Idx → EReal)
      = shapeCast S1x128 (m ((c : Thread nD τ).loc main_arg8) : S128.Idx → EReal) shapeCasts_S128_S1x128 := by
    show StableHlo.after hostOps0 (fun b => m (c, b)) (Proc.devRef .tc main_v25) = _
    after_results_simp
    rfl
  rw [e]
  exact RowCast.shapeCast_row_apply _ _ 0 j

/-- The fourth layer's bias as a row: entry (0, j) is b2(j). -/
theorem host_b2 (m : (ℓ : Loc nD τ sig) → Buf (Elt Ideal) ℓ) (c : Dev nD) (j : Fin 64) :
    (Gen.V1 (F := Ideal) m c main_v26 : S1x64.Idx → EReal) (ix2 0 j)
      = (m ((c : Thread nD τ).loc main_arg10) : S64.Idx → EReal) (ix1 j) := by
  have e : (Gen.V1 (F := Ideal) m c main_v26 : S1x64.Idx → EReal)
      = shapeCast S1x64 (m ((c : Thread nD τ).loc main_arg10) : S64.Idx → EReal) shapeCasts_S64_S1x64 := by
    show StableHlo.after hostOps0 (fun b => m (c, b)) (Proc.devRef .tc main_v26) = _
    after_results_simp
    rfl
  rw [e]
  exact RowCast.shapeCast_row_apply _ _ 0 j

/-- The last layer's bias as a row: entry (0, j) is b3(j). -/
theorem host_b3 (m : (ℓ : Loc nD τ sig) → Buf (Elt Ideal) ℓ) (c : Dev nD) (j : Fin 3) :
    (Gen.V1 (F := Ideal) m c main_v27 : S1x3.Idx → EReal) (ix2 0 j)
      = (m ((c : Thread nD τ).loc main_arg12) : S3.Idx → EReal) (ix1 j) := by
  have e : (Gen.V1 (F := Ideal) m c main_v27 : S1x3.Idx → EReal)
      = shapeCast S1x3 (m ((c : Thread nD τ).loc main_arg12) : S3.Idx → EReal) shapeCasts_S3_S1x3 := by
    show StableHlo.after hostOps0 (fun b => m (c, b)) (Proc.devRef .tc main_v27) = _
    after_results_simp
    rfl
  rw [e]
  exact RowCast.shapeCast_row_apply _ _ 0 j

end Cert.KernelIdeal.Hand

end
-- ==== Proof.LibColumnCast.lean ====
/-
  A vector of length n and the column [n, 1] that holds the same elements: a shape cast between the two keeps
  every element's row-major position, which is i for the vector's element i and i · 1 + 0 for the column's
  element (i, 0). So the cast to a column reads the vector at the row coordinate, and the cast back reads the
  column at (i, 0).
-/
import Idealize.ShloMosaic.Lib.ValueIdx
import Idealize.ShloMosaic.Lib.Pipeline.Value
import Idealize.ShloMosaic.Lib.ValueLayout

namespace Idealize.ShloMosaic.ColumnCast

open Idealize.ShloMosaic Idealize.ShloMosaic.ValueIdx

/-- A vector of length n cast to a column [n, 1] reads, at (i, u), the vector at i, whatever the unit
    coordinate u: the row-major positions are i · 1 + u with u = 0, and i. -/
theorem shapeCast_col_apply {α : Type} {n : ℕ} (x : (⟨1, ![n]⟩ : Shape).Idx → α)
    (h : (⟨1, ![n]⟩ : Shape).ShapeCasts (⟨2, ![n, 1]⟩ : Shape)) (i : Fin n) (u : Fin 1) :
    shapeCast (⟨2, ![n, 1]⟩ : Shape) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [n, 1] cast to a vector of length n reads, at i, the column at (i, 0): the row-major positions
    are i · 1 + 0 and i. -/
theorem shapeCast_uncol_apply {α : Type} {n : ℕ} (x : (⟨2, ![n, 1]⟩ : Shape).Idx → α)
    (h : (⟨2, ![n, 1]⟩ : Shape).ShapeCasts (⟨1, ![n]⟩ : Shape)) (i : Fin n) :
    shapeCast (⟨1, ![n]⟩ : Shape) x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnCast
-- ==== Proof.LibColumn.lean ====
/-
  A column broadcast along rows, read at an index.

  An `[a, 1]` array broadcast to `[a, b]` repeats each row's one entry across the row: at `(p, c)` it reads the
  operand at `(p, 0)`.
-/
import Idealize.ShloMosaic.Lib.Pipeline.Value
import Idealize.ShloMosaic.Lib.ValueIdx

noncomputable section

namespace Idealize.ShloMosaic.ColumnBroadcast

open Idealize.ShloMosaic Idealize.ShloMosaic.ValueIdx

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnBroadcast

end
-- ==== Proof.CdistPayload.lean ====
/-
  One entry of the distance block as a function of the two row blocks.

  The body squares each row block entrywise and sums the three lanes (a row's squared norm), lays the first
  block's norms out as a column and the second's as a row, spreads both over the 1024 × 1024 square and adds
  them, takes the matrix product of the first block with the transposed second (entry (p, q) is the inner
  product of row p of the first with row q of the second), subtracts twice that, clamps at zero, and takes the
  root where the clamped value is positive, zero elsewhere. So entry (p, q) depends on row p of the first block
  and row q of the second only.
-/
import proofs.«148003_j26620207301223_1_alg».proof.Proof.Gen.KernelIdeal.Skeleton
import proofs.«148003_j26620207301223_1_alg».proof.Proof.SageSpec
import proofs.«148003_j26620207301223_1_alg».proof.Proof.LibColumnCast
import proofs.«148003_j26620207301223_1_alg».proof.Proof.LibRowCast
import proofs.«148003_j26620207301223_1_alg».proof.Proof.LibColumn
import proofs.«148003_j26620207301223_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Sage.Cdist

open Idealize.ShloMosaic Idealize.ShloMosaic.ValueIdx
open Cert.KernelIdeal

/-- The sum over the three lanes of a 1024 × 3 block, at row p. -/
theorem laneSum_apply (v : FVec Ideal S1024x3 .f32) (h : S1024x3.Reduces [1] S1024) (hφ : FKind.Formats .f32)
    (hacc : (0x00000000#32 : BitVec 32) = 0x00000000#32) (p : Fin 1024) :
    multiReduction (F := Ideal) .add [1] S1024 v 0x00000000#32 h hφ hacc (ix1 p) = ∑ k : Fin 3, v (ix2 p k) := by
  refine (Ideal.multiReduction_add_single v 0x00000000#32 h hφ hacc (ix1 p)).trans ?_
  refine Finset.sum_congr rfl fun k _ => congrArg v ?_
  funext ax
  apply Fin.ext
  match ax with
  | ⟨0, _⟩ => rfl
  | ⟨1, _⟩ => rfl

/-- A block's row norms spread along the columns: entry (p, q) is the squared norm of row p. -/
theorem colNorm_apply (v : FVec Ideal S1024x3 .f32) (hs : S1024x3.ShapeCasts S1024x3) (h : S1024x3.Reduces [1] S1024)
    (hφ : FKind.Formats .f32) (hacc : (0x00000000#32 : BitVec 32) = 0x00000000#32)
    (hc : S1024.ShapeCasts S1024x1) (hb : S1024x1.Broadcasts S1024x1024) (p q : Fin 1024) :
    broadcastTo S1024x1024 (shapeCast S1024x1 (multiReduction (F := Ideal) .add [1] S1024
        (mulf (shapeCast S1024x3 v hs) (shapeCast S1024x3 v hs)) 0x00000000#32 h hφ hacc) hc) hb (ix2 p q)
      = sqn fun k => v (ix2 p k) := by
  refine (ColumnBroadcast.broadcastTo_a1_ab_apply _ hb p q).trans ?_
  refine (ColumnCast.shapeCast_col_apply _ hc p 0).trans ?_
  refine (laneSum_apply _ h hφ hacc p).trans ?_
  rw [shapeCast_self]
  rfl

/-- A block's row norms spread along the rows: entry (p, q) is the squared norm of row q. -/
theorem rowNorm_apply (v : FVec Ideal S1024x3 .f32) (hs : S1024x3.ShapeCasts S1024x3) (h : S1024x3.Reduces [1] S1024)
    (hφ : FKind.Formats .f32) (hacc : (0x00000000#32 : BitVec 32) = 0x00000000#32)
    (hc : S1024.ShapeCasts S1x1024) (hb : S1x1024.Broadcasts S1024x1024) (p q : Fin 1024) :
    broadcastTo S1024x1024 (shapeCast S1x1024 (multiReduction (F := Ideal) .add [1] S1024
        (mulf (shapeCast S1024x3 v hs) (shapeCast S1024x3 v hs)) 0x00000000#32 h hφ hacc) hc) hb (ix2 p q)
      = sqn fun k => v (ix2 q k) := by
  refine (broadcastTo_1b_ab_apply _ hb p q).trans ?_
  refine (RowCast.shapeCast_row_apply _ hc 0 q).trans ?_
  refine (laneSum_apply _ h hφ hacc q).trans ?_
  rw [shapeCast_self]
  rfl

/-- The product of the first block with the transposed second, into the zero splat: entry (p, q) is the inner
    product of row p of the first with row q of the second. -/
theorem gram_apply (v0 v2 : FVec Ideal S1024x3 .f32) (hs : S1024x3.ShapeCasts S1024x3)
    (ht : S1024x3.Transposes [1, 0] S3x1024) (p q : Fin 1024) :
    matmul dot_S1024x3_S3x1024_S1024x1024_1_0_0_1_n_n none (shapeCast S1024x3 v0 hs)
        (transpose S3x1024 [1, 0] (shapeCast S1024x3 v2 hs) ht) (constant (F := Ideal) S1024x1024 .f32 0x00000000#32) (ix2 p q)
      = ∑ k : Fin 3, v0 (ix2 p k) * v2 (ix2 q k) := by
  refine (Cert.LibPlainProduct.matmul_zero_plain_apply
    Facts₀.dot_S1024x3_S3x1024_S1024x1024_1_0_0_1_n_n_wf none _ _ p q).trans ?_
  refine Finset.sum_congr rfl fun k _ => ?_
  rw [transpose_ix2_apply, shapeCast_self, shapeCast_self]

/-- Entry (p, q) of the distance block: the root of the clamped (‖row p‖² + ‖row q‖²) − 2·⟨row p, row q⟩. -/
theorem pay_apply (v0 v2 : FVec Ideal S1024x3 .f32) (p q : Fin 1024) :
    Gen.k1_pay1 (F := Ideal) v0 v2 (ix2 p q)
      = root ((sqn (fun k => v0 (ix2 p k)) + sqn (fun k => v2 (ix2 q k))) - two * ∑ k : Fin 3, v0 (ix2 p k) * v2 (ix2 q k)) := by
  rw [← colNorm_apply v0 Gen.shapeCasts_S1024x3_S1024x3 Gen.reduces_S1024x3_S1024 (.inl rfl) rfl
        Gen.shapeCasts_S1024_S1024x1 Gen.broadcasts_S1024x1_S1024x1024 p q,
      ← rowNorm_apply v2 Gen.shapeCasts_S1024x3_S1024x3 Gen.reduces_S1024x3_S1024 (.inl rfl) rfl
        Gen.shapeCasts_S1024_S1x1024 Gen.broadcasts_S1x1024_S1024x1024 p q,
      ← gram_apply v0 v2 Gen.shapeCasts_S1024x3_S1024x3 Gen.transposes_S1024x3_p1_0_S3x1024 p q]
  rfl

end Sage.Cdist

end
-- ==== Proof.CdistKernel.lean ====
/-
  The distance region's result array: every 1024 × 1024 block the 8 × 8 grid writes back is a block of ONE
  function of the embedding array — entry (i, j) is the distance between rows i and j —, and the 64 blocks
  tile the 8192 × 8192 array; so the array ends holding that function.
-/
import proofs.«148003_j26620207301223_1_alg».proof.Proof.KIRegion1Defs
import proofs.«148003_j26620207301223_1_alg».proof.Proof.CdistPayload
import Idealize.ShloMosaic.Lib.Pipeline.Value
import Idealize.ShloMosaic.Lib.Tactic

set_option maxRecDepth 16384

noncomputable section

namespace Sage.Cdist

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem zeroOffsets : (![0, 0] : Fin 2 → Nat) = fun _ => 0 := funext fun a => by fin_cases a <;> rfl

/-- The distance matrix of an 8192 × 3 array's rows, as an 8192 × 8192 array. -/
def distArray (y : S8192x3.Idx → EReal) : S8192x8192.Idx → EReal :=
  fun i => D (fun r k => y (ix2 r k)) (i 0) (i 1)

/-- The distance of two points of the 3-space from their coordinates. -/
def dist3 (a b : Fin 3 → EReal) : EReal :=
  root ((sqn a + sqn b) - two * ∑ k : Fin 3, a k * b k)

/-- The block indices over the grid: point t's first row block is the output block's row index, its second row
    block is the output block's column index, both at lane block 0; and the output's block indices are below 8. -/
theorem blockIndices : ∀ t : Fin cfg1.N,
    win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) ≤ 7 ∧ win1_2.index t (1 : Fin 2) ≤ 7 :=
  (by decide +kernel : ∀ t : Fin grid1.N, _)

/-- Every pair of block indices is some point's. -/
theorem blockIndices_onto : ∀ (q0 q1 : Fin 8), ∃ t : Fin cfg1.N, win1_2.index t = ![q0.val, q1.val] :=
  (by decide +kernel : ∀ (q0 q1 : Fin 8), ∃ t : Fin grid1.N, win1_2.index t = ![q0.val, q1.val])

/-- The first window's block at point t holds rows 1024·(the output block's row index) + p of the embedding. -/
theorem rowBlock_apply (c : Dev nD) (t : Fin cfg1.N) (p : Fin 1024) (k : Fin 3) (r : Fin 8192)
    (hr : r.val = win1_2.index t (0 : Fin 2) * 1024 + p.val) :
    (iblk1 (F := Ideal) V c 0 t : S1024x3.Idx → EReal) (ix2 p k) = (V c main_v28 : S8192x3.Idx → EReal) (ix2 r k) := by
  obtain ⟨e0, e1, e2, e3, e4, e5⟩ := blockIndices t
  unfold iblk1
  rw [View.read_apply]
  show V c main_v28 _ = V c main_v28 _
  congr 1
  funext a
  apply Fin.ext
  match a with
  | ⟨0, _⟩ => show win1_0.index t (0 : Fin 2) * 1024 + 1 * p.val = r.val; omega
  | ⟨1, _⟩ => show win1_0.index t (1 : Fin 2) * 3 + 1 * k.val = k.val; omega

/-- The second window's block at point t holds rows 1024·(the output block's column index) + q of the embedding. -/
theorem colBlock_apply (c : Dev nD) (t : Fin cfg1.N) (q : Fin 1024) (k : Fin 3) (r : Fin 8192)
    (hr : r.val = win1_2.index t (1 : Fin 2) * 1024 + q.val) :
    (iblk1 (F := Ideal) V c 1 t : S1024x3.Idx → EReal) (ix2 q k) = (V c main_v28 : S8192x3.Idx → EReal) (ix2 r k) := by
  obtain ⟨e0, e1, e2, e3, e4, e5⟩ := blockIndices t
  unfold iblk1
  rw [View.read_apply]
  show V c main_v28 _ = V c main_v28 _
  congr 1
  funext a
  apply Fin.ext
  match a with
  | ⟨0, _⟩ => show win1_1.index t (0 : Fin 2) * 1024 + 1 * q.val = r.val; omega
  | ⟨1, _⟩ => show win1_1.index t (1 : Fin 2) * 3 + 1 * k.val = k.val; omega

/-- What point t writes back is block t of the distance matrix of the embedding array. -/
theorem flushed_eq (c : Dev nD) (t : Fin cfg1.N) :
    (dat1 (F := Ideal) V c).flushed 2 t = ((cfg1.win 2).blk t).view.read (Elt Ideal) (distArray (V c main_v28)) := by
  show (cfg1.win 2).cut (grid1.coords t) ((dat1 V c).after 2 t) = _
  rw [after1_2]
  unfold out1_2
  rw [View.canon_unit_zero zeroOffsets]
  simp only [View.ld_unit_zero (S := S1024x3) zeroOffsets]
  funext y
  obtain ⟨p, q, rfl⟩ : ∃ (p q : Fin 1024), y = ix2 p q := ⟨y 0, y 1, eq_ix2 (n0 := 1024) (n1 := 1024) y⟩
  refine (pay_apply (iblk1 V c 0 t) (iblk1 V c 1 t) p q).trans ?_
  have h0 : ((((cfg1.win 2).blk t).view.emb (ix2 p q)) (0 : Fin 2)).val = win1_2.index t (0 : Fin 2) * 1024 + p.val := by
    show win1_2.index t (0 : Fin 2) * 1024 + 1 * p.val = _
    omega
  have h1 : ((((cfg1.win 2).blk t).view.emb (ix2 p q)) (1 : Fin 2)).val = win1_2.index t (1 : Fin 2) * 1024 + q.val := by
    show win1_2.index t (1 : Fin 2) * 1024 + 1 * q.val = _
    omega
  exact congrArg₂ dist3
    (funext fun k => rowBlock_apply V c t p k _ h0)
    (funext fun k => colBlock_apply V c t q k _ h1)

/-- An index of the array is in point t's block iff each coordinate is in the block's range on its axis. -/
theorem mem_block (t : Fin cfg1.N) (i : S8192x8192.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v29).slice (win1_2.rect t)).set ↔ _
  rw [View.set_slice_whole, Rect.mem_set_unit]
  exact Iff.rfl

/-- Entry (i, j) lies in the block of the point whose block indices are (i / 1024, j / 1024). -/
theorem covered (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := blockIndices_onto ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_block]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 1024 ≤ (i 1).val ∧ (i 1).val < win1_2.index t (1 : Fin 2) * 1024 + 1024
    omega

/-- The result array after the region: the distance matrix of the embedding array as the region found it. -/
theorem distArray_final (c : Dev nD) :
    (dat1 (F := Ideal) V c).arrAt 2 cfg1.N = distArray (V c main_v28) :=
  (dat1 (F := Ideal) V c).arrAt_eq_of_cover 2 (distArray (V c main_v28)) (fun t _ => flushed_eq V c t) covered

/-- Entry (i, j) of the result array is the distance between rows i and j of the embedding array. -/
theorem _root_.Sage.kernel_d (c : Dev nD) (i j : Fin 8192) :
    ((dat1 (F := Ideal) V c).arrAt 2 cfg1.N : S8192x8192.Idx → EReal) (ix2 i j)
      = D (fun r k => (V c main_v28 : S8192x3.Idx → EReal) (ix2 r k)) i j := by
  rw [distArray_final]
  rfl

end Sage.Cdist

end
-- ==== Proof.CdistRef.lean ====
/-
  The reference's distance matrix, entry by entry.

  The reference forms, from the 8192 embeddings y_r (3 coordinates each), the squared norms s_r = Σ_k y_rk·y_rk,
  spreads them along rows and along columns, subtracts twice the Gram entry Σ_k y_ik·y_jk, clamps the difference
  at zero, and takes the root where the clamped value is positive (zero elsewhere). Read at the entry (i, j) this
  is `Sage.D y i j`. Every step reads ONE entry of its operands except the row sum and the contraction, which
  read the three coordinates of a row; no law of arithmetic beyond `0 + t = t` is used. The embedding itself is
  never opened: it enters only through its entries y_rk.
-/
import proofs.«148003_j26620207301223_1_alg».proof.Proof.Gen.ReferenceIdeal.Read
import proofs.«148003_j26620207301223_1_alg».proof.Proof.SageSpec

noncomputable section

namespace Sage

open Cert.ReferenceIdeal Cert.ReferenceIdeal.Read Idealize.ShloMosaic Idealize.ShloMosaic.ValueIdx

/-! ## Which entries each stage reads

  The stages' index maps, composed, at an entry given by its coordinates. -/

/-- Term `k` of row `r`'s sum of squares is entry `(r, k)`. -/
theorem ref_idx_rowsum (r : Fin 8192) (k : Fin 3) : idx_main_v50 (ix1 r) k = ix2 r k :=
  funext fun a => Fin.ext (by match a with | ⟨0, _⟩ => rfl | ⟨1, _⟩ => rfl)

/-- The norms spread along rows: entry `(i, j)` reads the norm of row `i`. -/
theorem ref_idx_spread_rows (i j : Fin 8192) : idx_main_v51 (idx_main_v53 (ix2 i j)) = ix1 i :=
  funext fun a => Fin.ext (by match a with | ⟨0, _⟩ => rfl)

/-- The norms spread along columns: entry `(i, j)` reads the norm of row `j`. -/
theorem ref_idx_spread_cols (i j : Fin 8192) : idx_main_v52 (idx_main_v54 (ix2 i j)) = ix1 j :=
  funext fun a => Fin.ext (by match a with | ⟨0, _⟩ => rfl)

/-- The contraction's left factor at `(i, j)`, term `k`, is entry `(i, k)`. -/
theorem ref_idx_gram_left (i j : Fin 8192) (k : Fin 3) : lidx_main_v57 (ix2 i j) k = ix2 i k :=
  funext fun a => Fin.ext (by match a with | ⟨0, _⟩ => rfl | ⟨1, _⟩ => rfl)

/-- Its right factor is the transpose at `(k, j)`, that is entry `(j, k)`. -/
theorem ref_idx_gram_right (i j : Fin 8192) (k : Fin 3) : idx_main_v56 (ridx_main_v57 (ix2 i j) k) = ix2 j k :=
  funext fun a => Fin.ext (by match a with | ⟨0, _⟩ => rfl | ⟨1, _⟩ => rfl)

section
variable (x0 : (⟨S8192x512, .f32⟩ : BufTy).Contents (Elt Ideal)) (x1 : (⟨S2x262144, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S64x3, .f32⟩ : BufTy).Contents (Elt Ideal)) (x12 : (⟨S3, .f32⟩ : BufTy).Contents (Elt Ideal))

/-! ## The three ingredients at an entry -/

/-- Row `r`'s squared norm: the sum starts from the zero word, and each term is a coordinate times itself. -/
theorem ref_sqn (r : Fin 8192) :
    val_main_v50 (F := Ideal) x0 x1 x2 x3 x4 x5 x6 x7 x8 x9 x10 x11 x12 (ix1 r)
      = sqn (fun k => val_main_v48 (F := Ideal) x0 x1 x2 x3 x4 x5 x6 x7 x8 x9 x10 x11 x12 (ix2 r k)) := by
  rw [val_main_v50_apply, val_main_cst_4_apply, Ideal.ofBits_def, Ideal.ofBits_zero_f32, zero_add]
  unfold sqn
  refine Finset.sum_congr rfl fun k _ => ?_
  rw [val_main_v49_apply, ref_idx_rowsum, Ideal.mulf_def]

/-- The Gram entry `(i, j)`: the contraction over the three coordinates of rows `i` and `j`. -/
theorem ref_gram (i j : Fin 8192) :
    val_main_v57 (F := Ideal) x0 x1 x2 x3 x4 x5 x6 x7 x8 x9 x10 x11 x12 (ix2 i j)
      = ∑ k : Fin 3, val_main_v48 (F := Ideal) x0 x1 x2 x3 x4 x5 x6 x7 x8 x9 x10 x11 x12 (ix2 i k)
          * val_main_v48 (F := Ideal) x0 x1 x2 x3 x4 x5 x6 x7 x8 x9 x10 x11 x12 (ix2 j k) := by
  rw [val_main_v57_apply]
  refine Finset.sum_congr rfl fun k _ => ?_
  rw [val_main_v56_apply, ref_idx_gram_left, ref_idx_gram_right]

/-- The squared distance before clamping: the two norms added, minus twice the Gram entry. -/
theorem ref_d2 (i j : Fin 8192) :
    val_main_v60 (F := Ideal) x0 x1 x2 x3 x4 x5 x6 x7 x8 x9 x10 x11 x12 (ix2 i j)
      = (sqn (fun k => val_main_v48 (F := Ideal) x0 x1 x2 x3 x4 x5 x6 x7 x8 x9 x10 x11 x12 (ix2 i k))
          + sqn (fun k => val_main_v48 (F := Ideal) x0 x1 x2 x3 x4 x5 x6 x7 x8 x9 x10 x11 x12 (ix2 j k)))
        - two * ∑ k : Fin 3, val_main_v48 (F := Ideal) x0 x1 x2 x3 x4 x5 x6 x7 x8 x9 x10 x11 x12 (ix2 i k)
            * val_main_v48 (F := Ideal) x0 x1 x2 x3 x4 x5 x6 x7 x8 x9 x10 x11 x12 (ix2 j k) := by
  rw [val_main_v60_apply, val_main_v55_apply, val_main_v53_apply, val_main_v51_apply, ref_idx_spread_rows,
    val_main_v54_apply, val_main_v52_apply, ref_idx_spread_cols, val_main_v59_apply, val_main_v58_apply,
    val_main_cst_5_apply, ref_sqn, ref_sqn, ref_gram]
  rfl

/-! ## The clamp and the root -/

/-- From the unclamped squared distance to the distance, at any entry: clamp at zero; where the clamped value is
    positive keep it, elsewhere put 1; take the root; and where the clamped value is not positive put zero. -/
theorem ref_tail (e : S8192x8192.Idx) :
    val_main_v69 (F := Ideal) x0 x1 x2 x3 x4 x5 x6 x7 x8 x9 x10 x11 x12 e
      = root (val_main_v60 (F := Ideal) x0 x1 x2 x3 x4 x5 x6 x7 x8 x9 x10 x11 x12 e) := by
  rw [val_main_v69_apply, val_main_v67_apply, val_main_v66_apply, val_main_cst_9_apply, val_main_v68_apply,
    val_main_v65_apply, val_main_v64_apply, val_main_v63_apply, val_main_cst_7_apply, val_main_call4_v1_apply,
    val_main_call4_v0_apply, val_main_cst_8_apply, val_main_call5_v1_apply, val_main_call5_v0_apply,
    val_main_cst_10_apply, val_main_v62_apply, val_main_v61_apply, val_main_cst_6_apply]
  rfl

end

/-- The reference's result at the entry `(i, j)` is the distance of embeddings `i` and `j`. -/
theorem ref_d (x0 : (⟨S8192x512, .f32⟩ : BufTy).Contents (Elt Ideal)) (x1 : (⟨S2x262144, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S64x3, .f32⟩ : BufTy).Contents (Elt Ideal)) (x12 : (⟨S3, .f32⟩ : BufTy).Contents (Elt Ideal)) (i j : Fin 8192) :
    Cert.ReferenceIdeal.Read.val_main_v69 (F := Ideal) x0 x1 x2 x3 x4 x5 x6 x7 x8 x9 x10 x11 x12 (ix2 i j)
      = Sage.D (fun r k => Cert.ReferenceIdeal.Read.val_main_v48 (F := Ideal) x0 x1 x2 x3 x4 x5 x6 x7 x8 x9 x10 x11 x12 (ix2 r k)) i j := by
  rw [ref_tail, ref_d2]
  rfl

end Sage

end
-- ==== Proof.MlpRef.lean ====
/-
  The reference's embedding, read entry by entry.

  Entry (r, j) of the reference's last affine layer is the network `Sage.Y` at (r, j), fed with row r of the
  neighbour means and row r of the features. Each layer of the reference is a contraction of the previous layer
  with a weight matrix, plus a bias row repeated down the rows, and (all but the last) a maximum with a splat of
  the zero word. Read at entry (r, j) these are Σ_k h(r,k)·W(k,j), b(j) and max(·, 0): entry (r, j) of a layer
  depends on row r of the previous layer only. The neighbour means stay an unopened function of the inputs.
-/
import proofs.«148003_j26620207301223_1_alg».proof.Proof.Gen.ReferenceIdeal.Read
import proofs.«148003_j26620207301223_1_alg».proof.Proof.SageSpec

noncomputable section

namespace Sage

open Cert.ReferenceIdeal Cert.ReferenceIdeal.Read Idealize.ShloMosaic Idealize.ShloMosaic.ValueIdx

/-! ## Which entries of its operands a layer's entry reads

  A contraction's entry (r, j) multiplies entry (r, k) of its left operand with entry (k, j) of its right one;
  the repeated bias row is read at j. -/

section Indices

theorem lidx23 (r : Fin 8192) (j k : Fin 512) : lidx_main_v23 (ix2 r j) k = ix2 r k :=
  funext fun a => Fin.ext (by match a with | ⟨0, _⟩ => rfl | ⟨1, _⟩ => rfl)
theorem ridx23 (r : Fin 8192) (j k : Fin 512) : ridx_main_v23 (ix2 r j) k = ix2 k j :=
  funext fun a => Fin.ext (by match a with | ⟨0, _⟩ => rfl | ⟨1, _⟩ => rfl)
theorem bidx25 (r : Fin 8192) (j : Fin 512) : idx_main_v24 (idx_main_v25 (ix2 r j)) = ix1 j :=
  funext fun a => Fin.ext (by match a with | ⟨0, _⟩ => rfl)
theorem lidx27 (r : Fin 8192) (j k : Fin 512) : lidx_main_v27 (ix2 r j) k = ix2 r k :=
  funext fun a => Fin.ext (by match a with | ⟨0, _⟩ => rfl | ⟨1, _⟩ => rfl)
theorem ridx27 (r : Fin 8192) (j k : Fin 512) : ridx_main_v27 (ix2 r j) k = ix2 k j :=
  funext fun a => Fin.ext (by match a with | ⟨0, _⟩ => rfl | ⟨1, _⟩ => rfl)

theorem lidx30 (r : Fin 8192) (j : Fin 256) (k : Fin 512) : lidx_main_v30 (ix2 r j) k = ix2 r k :=
  funext fun a => Fin.ext (by match a with | ⟨0, _⟩ => rfl | ⟨1, _⟩ => rfl)
theorem ridx30 (r : Fin 8192) (j : Fin 256) (k : Fin 512) : ridx_main_v30 (ix2 r j) k = ix2 k j :=
  funext fun a => Fin.ext (by match a with | ⟨0, _⟩ => rfl | ⟨1, _⟩ => rfl)
theorem bidx32 (r : Fin 8192) (j : Fin 256) : idx_main_v31 (idx_main_v32 (ix2 r j)) = ix1 j :=
  funext fun a => Fin.ext (by match a with | ⟨0, _⟩ => rfl)

theorem lidx35 (r : Fin 8192) (j : Fin 128) (k : Fin 256) : lidx_main_v35 (ix2 r j) k = ix2 r k :=
  funext fun a => Fin.ext (by match a with | ⟨0, _⟩ => rfl | ⟨1, _⟩ => rfl)
theorem ridx35 (r : Fin 8192) (j : Fin 128) (k : Fin 256) : ridx_main_v35 (ix2 r j) k = ix2 k j :=
  funext fun a => Fin.ext (by match a with | ⟨0, _⟩ => rfl | ⟨1, _⟩ => rfl)
theorem bidx37 (r : Fin 8192) (j : Fin 128) : idx_main_v36 (idx_main_v37 (ix2 r j)) = ix1 j :=
  funext fun a => Fin.ext (by match a with | ⟨0, _⟩ => rfl)

theorem lidx40 (r : Fin 8192) (j : Fin 64) (k : Fin 128) : lidx_main_v40 (ix2 r j) k = ix2 r k :=
  funext fun a => Fin.ext (by match a with | ⟨0, _⟩ => rfl | ⟨1, _⟩ => rfl)
theorem ridx40 (r : Fin 8192) (j : Fin 64) (k : Fin 128) : ridx_main_v40 (ix2 r j) k = ix2 k j :=
  funext fun a => Fin.ext (by match a with | ⟨0, _⟩ => rfl | ⟨1, _⟩ => rfl)
theorem bidx42 (r : Fin 8192) (j : Fin 64) : idx_main_v41 (idx_main_v42 (ix2 r j)) = ix1 j :=
  funext fun a => Fin.ext (by match a with | ⟨0, _⟩ => rfl)

theorem lidx45 (r : Fin 8192) (j : Fin 3) (k : Fin 64) : lidx_main_v45 (ix2 r j) k = ix2 r k :=
  funext fun a => Fin.ext (by match a with | ⟨0, _⟩ => rfl | ⟨1, _⟩ => rfl)
theorem ridx45 (r : Fin 8192) (j : Fin 3) (k : Fin 64) : ridx_main_v45 (ix2 r j) k = ix2 k j :=
  funext fun a => Fin.ext (by match a with | ⟨0, _⟩ => rfl | ⟨1, _⟩ => rfl)
theorem bidx47 (r : Fin 8192) (j : Fin 3) : idx_main_v46 (idx_main_v47 (ix2 r j)) = ix1 j :=
  funext fun a => Fin.ext (by match a with | ⟨0, _⟩ => rfl)

end Indices

/-! ## The layers, one entry at a time -/

section Layers

variable (x0 : (⟨S8192x512, .f32⟩ : BufTy).Contents (Elt Ideal)) (x1 : (⟨S2x262144, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S64x3, .f32⟩ : BufTy).Contents (Elt Ideal)) (x12 : (⟨S3, .f32⟩ : BufTy).Contents (Elt Ideal))

/-- The first hidden layer at (r, j): the neighbour means' row r through W_l, plus b_l(j), plus the features' row r
    through W_r, then the maximum with zero — in that grouping. -/
theorem ref_hid0 (r : Fin 8192) (j : Fin 512) :
    val_main_v29 (F := Ideal) x0 x1 x2 x3 x4 (ix2 r j)
      = hid0 (fun k => val_main_v22 (F := Ideal) x0 x1 (ix2 r k)) (fun k => x0 (ix2 r k))
          (fun k j => x2 (ix2 k j)) (fun j => x3 (ix1 j)) (fun k j => x4 (ix2 k j)) j := by
  rw [val_main_v29_apply, val_main_v28_apply, val_main_v26_apply, val_main_v23_apply, val_main_v25_apply,
    val_main_v24_apply, val_main_v27_apply, val_main_call0_v0_apply, val_main_call0_cst_apply]
  generalize val_main_v22 (F := Ideal) x0 x1 = a
  simp only [lidx23, ridx23, bidx25, lidx27, ridx27]
  rfl

/-- The second hidden layer at (r, j), from row r of the first. -/
theorem ref_hid1 (r : Fin 8192) (j : Fin 256) :
    val_main_v34 (F := Ideal) x0 x1 x2 x3 x4 x5 x6 (ix2 r j)
      = relu (lin (fun k => val_main_v29 (F := Ideal) x0 x1 x2 x3 x4 (ix2 r k))
          (fun k j => x5 (ix2 k j)) (fun j => x6 (ix1 j)) j) := by
  rw [val_main_v34_apply, val_main_v33_apply, val_main_v30_apply, val_main_v32_apply, val_main_v31_apply,
    val_main_call1_v0_apply, val_main_call1_cst_apply]
  generalize val_main_v29 (F := Ideal) x0 x1 x2 x3 x4 = h
  simp only [lidx30, ridx30, bidx32]
  rfl

/-- The third hidden layer at (r, j), from row r of the second. -/
theorem ref_hid2 (r : Fin 8192) (j : Fin 128) :
    val_main_v39 (F := Ideal) x0 x1 x2 x3 x4 x5 x6 x7 x8 (ix2 r j)
      = relu (lin (fun k => val_main_v34 (F := Ideal) x0 x1 x2 x3 x4 x5 x6 (ix2 r k))
          (fun k j => x7 (ix2 k j)) (fun j => x8 (ix1 j)) j) := by
  rw [val_main_v39_apply, val_main_v38_apply, val_main_v35_apply, val_main_v37_apply, val_main_v36_apply,
    val_main_call2_v0_apply, val_main_call2_cst_apply]
  generalize val_main_v34 (F := Ideal) x0 x1 x2 x3 x4 x5 x6 = h
  simp only [lidx35, ridx35, bidx37]
  rfl

/-- The fourth hidden layer at (r, j), from row r of the third. -/
theorem ref_hid3 (r : Fin 8192) (j : Fin 64) :
    val_main_v44 (F := Ideal) x0 x1 x2 x3 x4 x5 x6 x7 x8 x9 x10 (ix2 r j)
      = relu (lin (fun k => val_main_v39 (F := Ideal) x0 x1 x2 x3 x4 x5 x6 x7 x8 (ix2 r k))
          (fun k j => x9 (ix2 k j)) (fun j => x10 (ix1 j)) j) := by
  rw [val_main_v44_apply, val_main_v43_apply, val_main_v40_apply, val_main_v42_apply, val_main_v41_apply,
    val_main_call3_v0_apply, val_main_call3_cst_apply]
  generalize val_main_v39 (F := Ideal) x0 x1 x2 x3 x4 x5 x6 x7 x8 = h
  simp only [lidx40, ridx40, bidx42]
  rfl

/-- The last affine layer at (r, j), from row r of the fourth hidden layer; no maximum. -/
theorem ref_out (r : Fin 8192) (j : Fin 3) :
    val_main_v48 (F := Ideal) x0 x1 x2 x3 x4 x5 x6 x7 x8 x9 x10 x11 x12 (ix2 r j)
      = lin (fun k => val_main_v44 (F := Ideal) x0 x1 x2 x3 x4 x5 x6 x7 x8 x9 x10 (ix2 r k))
          (fun k j => x11 (ix2 k j)) (fun j => x12 (ix1 j)) j := by
  rw [val_main_v48_apply, val_main_v45_apply, val_main_v47_apply, val_main_v46_apply]
  generalize val_main_v44 (F := Ideal) x0 x1 x2 x3 x4 x5 x6 x7 x8 x9 x10 = h
  simp only [lidx45, ridx45, bidx47]
  rfl

end Layers

/-- The reference's embedding at (r, j) is the network of row r of the neighbour means and of the features:
    the five layers above, each substituted into the next. -/
theorem ref_y (x0 : (⟨S8192x512, .f32⟩ : BufTy).Contents (Elt Ideal)) (x1 : (⟨S2x262144, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S64x3, .f32⟩ : BufTy).Contents (Elt Ideal)) (x12 : (⟨S3, .f32⟩ : BufTy).Contents (Elt Ideal)) (r : Fin 8192) (j : Fin 3) :
    Cert.ReferenceIdeal.Read.val_main_v48 (F := Ideal) x0 x1 x2 x3 x4 x5 x6 x7 x8 x9 x10 x11 x12 (ix2 r j)
      = Sage.Y (fun r k => Cert.ReferenceIdeal.Read.val_main_v22 (F := Ideal) x0 x1 (ix2 r k)) (fun r k => x0 (ix2 r k))
          (fun k j => x2 (ix2 k j)) (fun j => x3 (ix1 j)) (fun k j => x4 (ix2 k j)) (fun k j => x5 (ix2 k j))
          (fun j => x6 (ix1 j)) (fun k j => x7 (ix2 k j)) (fun j => x8 (ix1 j)) (fun k j => x9 (ix2 k j))
          (fun j => x10 (ix1 j)) (fun k j => x11 (ix2 k j)) (fun j => x12 (ix1 j)) r j := by
  simp only [ref_out, ref_hid3, ref_hid2, ref_hid1, ref_hid0]
  generalize val_main_v22 (F := Ideal) x0 x1 = a
  rfl

end Sage

end
-- ==== Proof.Bridge.lean ====
/-
  The program's final array is the reference's final value.

  Entry (i, j) of the array the second region leaves is the distance between rows i and j of the embedding buffer as
  that region finds it, and the reference's result at (i, j) is the same distance function of its own embedding. So
  the two results agree as soon as the two embeddings agree entry by entry. The embedding buffer as the second
  region finds it is what the first region left; that is the network `Sage.Y` of the buffers the first region
  finds (taken here as a hypothesis), and the reference's embedding is the same network of its arguments. The
  thirteen inputs of the network agree one by one: the neighbour means by the host prefix read as the reference's
  stage, the features and the weights because the prefix does not write them, the biases as rows read at (0, j).
-/
import proofs.«148003_j26620207301223_1_alg».proof.Proof.KIFrame
import proofs.«148003_j26620207301223_1_alg».proof.Proof.KIHost
import proofs.«148003_j26620207301223_1_alg».proof.Proof.CdistKernel
import proofs.«148003_j26620207301223_1_alg».proof.Proof.CdistRef
import proofs.«148003_j26620207301223_1_alg».proof.Proof.MlpRef

noncomputable section

namespace Sage

open Idealize.ShloMosaic Idealize.ShloMosaic.TcCoe Idealize.ShloMosaic.ValueIdx Idealize.SL.Sem
open Cert.KernelIdeal Cert.KernelIdeal.Gen Cert.KernelIdeal.Hand

/-- The network depends on its thirteen inputs only through their values: equal inputs give equal embeddings. -/
theorem Y_congr {A A' X X' : Fin 8192 → Fin 512 → EReal} {Wl Wl' Wr Wr' : Fin 512 → Fin 512 → EReal} {bl bl' : Fin 512 → EReal}
    {Wa Wa' : Fin 512 → Fin 256 → EReal} {ba ba' : Fin 256 → EReal} {W1 W1' : Fin 256 → Fin 128 → EReal} {b1 b1' : Fin 128 → EReal}
    {W2 W2' : Fin 128 → Fin 64 → EReal} {b2 b2' : Fin 64 → EReal} {W3 W3' : Fin 64 → Fin 3 → EReal} {b3 b3' : Fin 3 → EReal}
    (hA : A = A') (hX : X = X') (hWl : Wl = Wl') (hbl : bl = bl') (hWr : Wr = Wr') (hWa : Wa = Wa') (hba : ba = ba')
    (hW1 : W1 = W1') (hb1 : b1 = b1') (hW2 : W2 = W2') (hb2 : b2 = b2') (hW3 : W3 = W3') (hb3 : b3 = b3')
    (r : Fin 8192) (j : Fin 3) :
    Y A X Wl bl Wr Wa ba W1 b1 W2 b2 W3 b3 r j = Y A' X' Wl' bl' Wr' Wa' ba' W1' b1' W2' b2' W3' b3' r j := by
  subst hA hX hWl hbl hWr hWa hba hW1 hb1 hW2 hb2 hW3 hb3
  rfl

section Found

variable (m : (ℓ : Loc nD τ sig) → Buf (Elt Ideal) ℓ) (c : Dev nD)

/-- The embedding buffer as the second region finds it is the array the first region's write-backs make. -/
theorem emb_found :
    (VB (F := Ideal) m c main_v28 : S8192x3.Idx → EReal)
      = ((dat0 (F := Ideal) (VA m) c).arrAt 13 cfg0.N : S8192x3.Idx → EReal) := by
  show Function.update (Gen.V1 m c) main_v28 (y0 m c) main_v28 = _
  rw [Function.update_self]
  unfold y0
  rfl

/-- The host prefix writes none of the features and weight matrices: the first region finds them as launched. -/
theorem found_arg0 : (VA (F := Ideal) m c main_arg0 : S8192x512.Idx → EReal) = m ((c : Thread nD τ).loc main_arg0) :=
  (Gen.V1_of m c main_arg0 (by decide)).trans rfl
theorem found_arg2 : (VA (F := Ideal) m c main_arg2 : S512x512.Idx → EReal) = m ((c : Thread nD τ).loc main_arg2) :=
  (Gen.V1_of m c main_arg2 (by decide)).trans rfl
theorem found_arg4 : (VA (F := Ideal) m c main_arg4 : S512x512.Idx → EReal) = m ((c : Thread nD τ).loc main_arg4) :=
  (Gen.V1_of m c main_arg4 (by decide)).trans rfl
theorem found_arg5 : (VA (F := Ideal) m c main_arg5 : S512x256.Idx → EReal) = m ((c : Thread nD τ).loc main_arg5) :=
  (Gen.V1_of m c main_arg5 (by decide)).trans rfl
theorem found_arg7 : (VA (F := Ideal) m c main_arg7 : S256x128.Idx → EReal) = m ((c : Thread nD τ).loc main_arg7) :=
  (Gen.V1_of m c main_arg7 (by decide)).trans rfl
theorem found_arg9 : (VA (F := Ideal) m c main_arg9 : S128x64.Idx → EReal) = m ((c : Thread nD τ).loc main_arg9) :=
  (Gen.V1_of m c main_arg9 (by decide)).trans rfl
theorem found_arg11 : (VA (F := Ideal) m c main_arg11 : S64x3.Idx → EReal) = m ((c : Thread nD τ).loc main_arg11) :=
  (Gen.V1_of m c main_arg11 (by decide)).trans rfl

end Found

/-- The distance matrix the program leaves is the reference's result on the launch contents of the arguments,
    given that the first region's array is the network of the buffers it finds. -/
theorem result_eq_of (hky : ∀ (V : (c : Dev nD) → (b : Ref sig .tc) → Buf (Elt Ideal) ((c : Thread nD τ).loc b)) (c : Dev nD) (r : Fin 8192) (j : Fin 3),
      ((Cert.KernelIdeal.Hand.dat0 (F := Ideal) V c).arrAt 13 cfg0.N : S8192x3.Idx → EReal) (ix2 r j)
        = Sage.Y (fun r k => (V c main_v22 : S8192x512.Idx → EReal) (ix2 r k)) (fun r k => (V c main_arg0 : S8192x512.Idx → EReal) (ix2 r k))
            (fun k j => (V c main_arg2 : S512x512.Idx → EReal) (ix2 k j)) (fun j => (V c main_v23 : S1x512.Idx → EReal) (ix2 0 j))
            (fun k j => (V c main_arg4 : S512x512.Idx → EReal) (ix2 k j)) (fun k j => (V c main_arg5 : S512x256.Idx → EReal) (ix2 k j))
            (fun j => (V c main_v24 : S1x256.Idx → EReal) (ix2 0 j)) (fun k j => (V c main_arg7 : S256x128.Idx → EReal) (ix2 k j))
            (fun j => (V c main_v25 : S1x128.Idx → EReal) (ix2 0 j)) (fun k j => (V c main_arg9 : S128x64.Idx → EReal) (ix2 k j))
            (fun j => (V c main_v26 : S1x64.Idx → EReal) (ix2 0 j)) (fun k j => (V c main_arg11 : S64x3.Idx → EReal) (ix2 k j))
            (fun j => (V c main_v27 : S1x3.Idx → EReal) (ix2 0 j)) r j)
    (m : (ℓ : Loc nD τ sig) → Buf (Elt Ideal) ℓ) (c : Dev nD) :
    (Cert.KernelIdeal.Hand.y1 (F := Ideal) m c : S8192x8192.Idx → EReal)
      = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext e
  obtain ⟨i, j, rfl⟩ : ∃ (i j : Fin 8192), e = ix2 i j := ⟨e 0, e 1, eq_ix2 e⟩
  unfold Cert.KernelIdeal.Hand.y1
  -- both results are the distance function of an embedding
  refine (Sage.kernel_d (VB m) c i j).trans ?_
  refine Eq.trans ?_ (Sage.ref_d (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) i j).symm
  refine congrArg (fun y => Sage.D y i j) (funext fun r => funext fun k => ?_)
  -- the two embeddings at (r, k): each is the network of its thirteen inputs
  refine (congrFun (emb_found m c) (ix2 r k)).trans ?_
  refine (hky (VA m) c r k).trans ?_
  refine Eq.trans ?_ (Sage.ref_y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) r k).symm
  -- the inputs agree one by one
  exact Y_congr
    (funext fun r => funext fun k => congrFun (host_agg m c) (ix2 r k))
    (funext fun r => funext fun k => congrFun (found_arg0 m c) (ix2 r k))
    (funext fun k => funext fun j => congrFun (found_arg2 m c) (ix2 k j))
    (funext fun j => host_bl m c j)
    (funext fun k => funext fun j => congrFun (found_arg4 m c) (ix2 k j))
    (funext fun k => funext fun j => congrFun (found_arg5 m c) (ix2 k j))
    (funext fun j => host_ba m c j)
    (funext fun k => funext fun j => congrFun (found_arg7 m c) (ix2 k j))
    (funext fun j => host_b1 m c j)
    (funext fun k => funext fun j => congrFun (found_arg9 m c) (ix2 k j))
    (funext fun j => host_b2 m c j)
    (funext fun k => funext fun j => congrFun (found_arg11 m c) (ix2 k j))
    (funext fun j => host_b3 m c j)
    r k

end Sage

end
-- ==== Proof.lean ====
/-
  A graph-embedding network followed by all pairwise distances, tiled, against the same computation written
  with whole arrays.

  Both programs first form, for every node, the mean of its in-neighbours' 512 features (a gather of rows by source
  index, a sum by destination index, a division by the clamped in-degree): the same host operations on the same
  inputs, never opened here. The tiled program then runs two grids. The first cuts the 8192 nodes into 8 tiles of
  1024 rows and applies to each tile a five-layer network whose weights are read whole at every tile; row r of its
  output depends on row r of the features and of the neighbour means only, so the tiles, put side by side, are the
  whole-array network (`Sage.Y`). The second runs over 8×8 tiles of the 8192×8192 distance matrix; tile (a, b) reads
  rows 1024a… and rows 1024b… of the embedding and writes the distances between them, each the clamped root of
  ‖y_i‖² + ‖y_j‖² − 2⟨y_i, y_j⟩ (`Sage.D`), which is what the whole-array computation writes at (i, j). The equality
  holds on the extended reals with no hypothesis on the inputs: each side computes the same finite sums of the same
  products in one grouping, so only the index bookkeeping of the tiling is proved, never a law of arithmetic.

  The three frame claims say each program runs to the end without fault and leaves its arguments as launched. For
  the tiled programs this is the chain: host prefix, first grid, second grid — the second grid reads the embedding
  through two windows at once, each holding half of that buffer's share.
-/
import proofs.«148003_j26620207301223_1_alg».proof.Defs
import proofs.«148003_j26620207301223_1_alg».proof.Proof.Gen.Kernel
import proofs.«148003_j26620207301223_1_alg».proof.Proof.Gen.KernelIdeal
import proofs.«148003_j26620207301223_1_alg».proof.Proof.Gen.ReferenceIdeal
import proofs.«148003_j26620207301223_1_alg».proof.Proof.Gen.ReferenceIdeal.Run
import proofs.«148003_j26620207301223_1_alg».proof.Proof.Gen.ReferenceIdeal.Read
import proofs.«148003_j26620207301223_1_alg».proof.Proof.Gen.Pre_finite_inputs
import proofs.«148003_j26620207301223_1_alg».proof.Proof.KMain
import proofs.«148003_j26620207301223_1_alg».proof.Proof.KIMain
import proofs.«148003_j26620207301223_1_alg».proof.Proof.MlpKernel
import proofs.«148003_j26620207301223_1_alg».proof.Proof.Bridge
import Idealize.ShloMosaic.Adequacy
import Idealize.ShloMosaic.Init

noncomputable section

namespace Cert.Proof

open Idealize.ShloMosaic Idealize.SL.Sem

/-- The tiled program as printed runs to the end, faults nowhere, and leaves its arguments as launched. -/
theorem frame_k : Cert.frame_Kernel := fun m ρ _ => Cert.Kernel.Hand.frame_main m ρ

/-- So does its reading over the extended reals. -/
theorem frame_ki : Cert.frame_KernelIdeal := fun m ρ _ =>
  (θ_run Cert.KernelIdeal.defs _ _).mono (fun _ h c => (h c).2) (Cert.KernelIdeal.Hand.run_main m ρ)

/-- The whole-array program is a straight line of host operations: it runs, and writes no argument. -/
theorem frame_ri : Cert.frame_ReferenceIdeal := fun m ρ _ =>
  (θ_run Cert.ReferenceIdeal.defs _ _).mono (fun _ h c => (h c).2) (Cert.ReferenceIdeal.Value.run (F := Ideal) m ρ)

/-- Reading the tiled program over the extended reals rewrote no operation. -/
theorem preserves : Cert.preserves_Kernel_KernelIdeal := trivial

/-- From memories that agree on the arguments both programs end with the same distance matrix: the tiled one at
    what its second grid leaves, the whole-array one at its last operation's value, and these are one function of
    the arguments. -/
theorem algebraic : Cert.algebraic_KernelIdeal_ReferenceIdeal := by
  intro m ρ m' ρ' _ hagree
  refine ⟨fun c => Cert.KernelIdeal.Hand.y1 (F := Ideal) m c, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v69_eq m' c, h0, h1, h2, h3, h4, h5, h6, h7, h8, h9, h10, h11, h12]
  exact (Sage.result_eq_of Sage.kernel_y m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
